-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S128 .f32) (main_arg5 : FVec F S128 .f32) (main_arg6 : FVec F S128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_v33

def fn {F : FTy → Type} [FloatOps F] (main_arg0 : FVec F S100000x128 .f32) (main_arg1 : FVec F S100000x128 .f32) (main_arg2 : FVec F S128x128 .f32) (main_arg3 : FVec F S128 .f32) (main_arg4 : FVec F S128 .f32) (main_arg5 : FVec F S128 .f32) (main_arg6 : FVec F S128 .f32) (main_arg7 : FVec F S128 .f32) (main_arg8 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S4000x128 : Shape := ⟨2, ![4000, 128]⟩
abbrev S4000x1 : Shape := ⟨2, ![4000, 1]⟩
abbrev S1700000x128 : Shape := ⟨2, ![1700000, 128]⟩
abbrev S1x128 : Shape := ⟨2, ![1, 128]⟩
abbrev S4000 : Shape := ⟨1, ![4000]⟩

abbrev nBuf : Space → Nat
  | .hbm => 55
  | .vmem => 23
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S2x1600000, .i32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S100000, .i32⟩
  | .hbm, ⟨14, _⟩ => ⟨S1700000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S128x128, .bf16⟩
  | .hbm, ⟨31, _⟩ => ⟨S100000x1, .f32⟩
  | .hbm, ⟨32, _⟩ => ⟨S100000x128, .bf16⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000x128, .bf16⟩
  | .hbm, ⟨42, _⟩ => ⟨S1700000x128, .f32⟩
  | .hbm, ⟨43, _⟩ => ⟨S_, .f32⟩
  | .hbm, ⟨44, _⟩ => ⟨S100000x128, .f32⟩
  | .hbm, ⟨45, _⟩ => ⟨S1700000x1, .i32⟩
  | .hbm, ⟨46, _⟩ => ⟨S100000x128, .f32⟩
  | .hbm, ⟨47, _⟩ => ⟨S100000x1, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S100000x128, .f32⟩
  | .hbm, ⟨52, _⟩ => ⟨S1x128, .f32⟩
  | .hbm, ⟨53, _⟩ => ⟨S1x128, .f32⟩
  | .hbm, ⟨54, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S128x128, .bf16⟩
  | .local _ .vmem, ⟨3, _⟩ => ⟨S4000x1, .f32⟩
  | .local _ .vmem, ⟨4, _⟩ => ⟨S4000x1, .f32⟩
  | .local _ .vmem, ⟨5, _⟩ => ⟨S4000x128, .bf16⟩
  | .local _ .vmem, ⟨6, _⟩ => ⟨S4000x128, .bf16⟩
  | .local _ .vmem, ⟨7, _⟩ => ⟨S4000x128, .f32⟩
  | .local _ .vmem, ⟨8, _⟩ => ⟨S4000x128, .f32⟩
  | .local _ .vmem, ⟨9, _⟩ => ⟨S4000x1, .f32⟩
  | .local _ .vmem, ⟨10, _⟩ => ⟨S4000x1, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S128x128, .bf16⟩
  | .local _ .vmem, ⟨19, _⟩ => ⟨S1x128, .f32⟩
  | .local _ .vmem, ⟨20, _⟩ => ⟨S1x128, .f32⟩
  | .local _ .vmem, ⟨21, _⟩ => ⟨S4000x128, .f32⟩
  | .local _ .vmem, ⟨22, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem4_1 : DmaSem sig := 22

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bitsLt_bf16_f32 : FTy.bits .bf16 < FTy.bits .f32
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  packedbf16_S4000x128_S4000x128_0_0 : (Rect.unit (s := S4000x128) ![0, 0] S4000x128.size inb_S4000x128_S4000x128_0_0).PackedRows (EltTy.packing .bf16)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  shapeCasts_S4000x128_S4000x128 : S4000x128.ShapeCasts S4000x128
  reduces_S4000x128_S4000 : S4000x128.Reduces [1] S4000
  shapeCasts_S4000_S4000x1 : S4000.ShapeCasts S4000x1
  scatter_S100000_S1700000x1_S1700000_n_0_0_1_wf : ScatterDims.WF S100000 S1700000x1 S1700000 [] [0] [0] 1
  dot_S4000x128_S128x128_S4000x128_1_0_0_1_n_n_wf : DotDims.WF S4000x128 S128x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .bf16 = 32 ∨ (Rect.block (s := S100000x128) S4000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .bf16 = 32 ∨ (Rect.block (s := S128x128) S128x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x128.size a ≤ S100000x128.size a
  hwx2_4 : ∀ i : grid2.Coords, EltTy.bits .f32 = 32 ∨ (Rect.block (s := S100000x128) S4000x128.size (cc2_transform_4 i) (hinb2_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg1) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v34) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v36) S4000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩

abbrev nBuf : Space → Nat
  | .hbm => 128
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S2x1600000, .i32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S100000, .i32⟩
  | .hbm, ⟨14, _⟩ => ⟨S1700000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000, .f32⟩
  | .hbm, ⟨72, _⟩ => ⟨S100000x1, .f32⟩
  | .hbm, ⟨73, _⟩ => ⟨S_, .f32⟩
  | .hbm, ⟨74, _⟩ => ⟨S100000x1, .f32⟩
  | .hbm, ⟨75, _⟩ => ⟨S100000x1, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S_, .f32⟩
  | .hbm, ⟨80, _⟩ => ⟨S100000, .f32⟩
  | .hbm, ⟨81, _⟩ => ⟨S100000x1, .f32⟩
  | .hbm, ⟨82, _⟩ => ⟨S_, .f32⟩
  | .hbm, ⟨83, _⟩ => ⟨S100000x1, .f32⟩
  | .hbm, ⟨84, _⟩ => ⟨S100000x1, .f32⟩
  | .hbm, ⟨85, _⟩ => ⟨S100000x128, .f32⟩
  | .hbm, ⟨86, _⟩ => ⟨S100000x128, .f32⟩
  | .hbm, ⟨87, _⟩ => ⟨S_, .f32⟩
  | .hbm, ⟨88, _⟩ => ⟨S100000x1, .f32⟩
  | .hbm, ⟨89, _⟩ => ⟨S100000x1, .f32⟩
  | .hbm, ⟨90, _⟩ => ⟨S100000x1, .f32⟩
  | .hbm, ⟨91, _⟩ => ⟨S100000x128, .f32⟩
  | .hbm, ⟨92, _⟩ => ⟨S100000x128, .f32⟩
  | .hbm, ⟨93, _⟩ => ⟨S1x128, .f32⟩
  | .hbm, ⟨94, _⟩ => ⟨S100000x128, .f32⟩
  | .hbm, ⟨95, _⟩ => ⟨S100000x128, .f32⟩
  | .hbm, ⟨96, _⟩ => ⟨S1x128, .f32⟩
  | .hbm, ⟨97, _⟩ => ⟨S100000x128, .f32⟩
  | .hbm, ⟨98, _⟩ => ⟨S100000x128, .f32⟩
  | .hbm, ⟨99, _⟩ => ⟨S_, .f32⟩
  | .hbm, ⟨100, _⟩ => ⟨S100000, .f32⟩
  | .hbm, ⟨101, _⟩ => ⟨S100000x1, .f32⟩
  | .hbm, ⟨102, _⟩ => ⟨S_, .f32⟩
  | .hbm, ⟨103, _⟩ => ⟨S100000x1, .f32⟩
  | .hbm, ⟨104, _⟩ => ⟨S100000x1, .f32⟩
  | .hbm, ⟨105, _⟩ => ⟨S100000x128, .f32⟩
  | .hbm, ⟨106, _⟩ => ⟨S100000x128, .f32⟩
  | .hbm, ⟨107, _⟩ => ⟨S100000x128, .f32⟩
  | .hbm, ⟨108, _⟩ => ⟨S_, .f32⟩
  | .hbm, ⟨109, _⟩ => ⟨S100000, .f32⟩
  | .hbm, ⟨110, _⟩ => ⟨S100000x1, .f32⟩
  | .hbm, ⟨111, _⟩ => ⟨S_, .f32⟩
  | .hbm, ⟨112, _⟩ => ⟨S100000x1, .f32⟩
  | .hbm, ⟨113, _⟩ => ⟨S100000x1, .f32⟩
  | .hbm, ⟨114, _⟩ => ⟨S100000x128, .f32⟩
  | .hbm, ⟨115, _⟩ => ⟨S100000x128, .f32⟩
  | .hbm, ⟨116, _⟩ => ⟨S_, .f32⟩
  | .hbm, ⟨117, _⟩ => ⟨S100000x1, .f32⟩
  | .hbm, ⟨118, _⟩ => ⟨S100000x1, .f32⟩
  | .hbm, ⟨119, _⟩ => ⟨S100000x1, .f32⟩
  | .hbm, ⟨120, _⟩ => ⟨S100000x128, .f32⟩
  | .hbm, ⟨121, _⟩ => ⟨S100000x128, .f32⟩
  | .hbm, ⟨122, _⟩ => ⟨S1x128, .f32⟩
  | .hbm, ⟨123, _⟩ => ⟨S100000x128, .f32⟩
  | .hbm, ⟨124, _⟩ => ⟨S100000x128, .f32⟩
  | .hbm, ⟨125, _⟩ => ⟨S1x128, .f32⟩
  | .hbm, ⟨126, _⟩ => ⟨S100000x128, .f32⟩
  | .hbm, ⟨127, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_cst_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_11 : Ref sig .tc := ⟨.hbm, 79, rfl⟩
abbrev main_v55 : Ref sig .tc := ⟨.hbm, 80, rfl⟩
abbrev main_v56 : Ref sig .tc := ⟨.hbm, 81, rfl⟩
abbrev main_cst_12 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_13 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_14 : Ref sig .tc := ⟨.hbm, 99, rfl⟩
abbrev main_v72 : Ref sig .tc := ⟨.hbm, 100, rfl⟩
abbrev main_v73 : Ref sig .tc := ⟨.hbm, 101, rfl⟩
abbrev main_cst_15 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_16 : Ref sig .tc := ⟨.hbm, 108, rfl⟩
abbrev main_v79 : Ref sig .tc := ⟨.hbm, 109, rfl⟩
abbrev main_v80 : Ref sig .tc := ⟨.hbm, 110, rfl⟩
abbrev main_cst_17 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_18 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.Spec.lean ====
/-
  The two row-wise functions both programs compute, over the extended reals.

  * `xw x w r q` is entry (r, q) of the matrix product x · w: the sum over the shared axis of length 128.
  * `lnRow z g b q` is layer normalisation of one row z of length 128 at position q: the row minus its mean, times the
    reciprocal square root of (the mean of the squared deviations plus the program's epsilon), scaled by g q and shifted
    by b q.  The mean is the row sum divided by the float 128; epsilon is the float nearest 1e-5: both are kept as the
    binary words the two programs share, and never evaluated.
-/
import Idealize.ShloMosaic.PureOps.Ideal
import Idealize.ShloMosaic.Lib.ValueIdx

noncomputable section

namespace Cert.Spec

open Idealize.ShloMosaic Idealize.ShloMosaic.ValueIdx

/-- The float 128, the row length every mean divides by. -/
def c128 : EReal := Ideal.ofBits .f32 0x43000000#32
/-- The variance's epsilon (the float nearest 1e-5). -/
def eps : EReal := Ideal.ofBits .f32 0x3727C5AC#32

/-- The mean of a row of 128 entries. -/
def mean (z : Fin 128 → EReal) : EReal := Ideal.div (∑ k : Fin 128, z k) c128

/-- Layer normalisation of the row `z` with scale `g` and shift `b`, at position `q`. -/
def lnRow (z g b : Fin 128 → EReal) (q : Fin 128) : EReal :=
  (z q - mean z) * Ideal.rsqrt (mean (fun k => (z k - mean z) * (z k - mean z)) + eps) * g q + b q

/-- Entry (r, q) of the product of an n × 128 matrix with a 128 × 128 matrix. -/
def xw {n : Nat} (x : (⟨2, ![n, 128]⟩ : Shape).Idx → EReal) (w : (⟨2, ![128, 128]⟩ : Shape).Idx → EReal)
    (r : Fin n) (q : Fin 128) : EReal :=
  ∑ k : Fin 128, x (ix2 r k) * w (ix2 k q)

end Cert.Spec

end
-- ==== Proof.RefRead.lean ====
/-
  The reference program read at an index.  Its matrix product is `Spec.xw`; each of its two layer normalisations is
  `Spec.lnRow` of the row it normalises: the rows of x1 · x2 for the second result, and the rows of the scattered
  sum plus the bias x3 for the first.  Every stage is read at an index built from literal coordinates.
-/
import proofs.«147667_j32315333935196_2_alg».proof.Proof.RefReadP
import proofs.«147667_j32315333935196_2_alg».proof.Proof.Spec

noncomputable section

namespace Cert.RefRead

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx

/-! ## The matrix products -/

/-- Entry (r, q) of x0 · x2. -/
theorem v30_apply (x0 : (⟨S100000x128, .f32⟩ : BufTy).Contents (Elt Ideal)) (x2 : (⟨S128x128, .f32⟩ : BufTy).Contents (Elt Ideal)) (r : Fin 100000) (q : Fin 128) :
    ReadP.val_main_v30 (F := Ideal) x0 x2 (ix2 r q) = Spec.xw x0 x2 r q := by
  rw [val_main_v30_apply]
  unfold Spec.xw
  refine Finset.sum_congr rfl fun k _ => ?_
  have el : lidx_main_v30 (ix2 r q) k = ix2 r k := funext fun a => Fin.ext (by match a with | ⟨0, _⟩ => rfl | ⟨1, _⟩ => rfl)
  have er : ridx_main_v30 (ix2 r q) k = ix2 k q := funext fun a => Fin.ext (by match a with | ⟨0, _⟩ => rfl | ⟨1, _⟩ => rfl)
  rw [el, er]

/-- Entry (r, q) of x1 · x2. -/
theorem v47_apply (x1 : (⟨S100000x128, .f32⟩ : BufTy).Contents (Elt Ideal)) (x2 : (⟨S128x128, .f32⟩ : BufTy).Contents (Elt Ideal)) (r : Fin 100000) (q : Fin 128) :
    ReadP.val_main_v47 (F := Ideal) x1 x2 (ix2 r q) = Spec.xw x1 x2 r q := by
  rw [val_main_v47_apply]
  unfold Spec.xw
  refine Finset.sum_congr rfl fun k _ => ?_
  have el : lidx_main_v47 (ix2 r q) k = ix2 r k := funext fun a => Fin.ext (by match a with | ⟨0, _⟩ => rfl | ⟨1, _⟩ => rfl)
  have er : ridx_main_v47 (ix2 r q) k = ix2 k q := funext fun a => Fin.ext (by match a with | ⟨0, _⟩ => rfl | ⟨1, _⟩ => rfl)
  rw [el, er]

/-! ## The second result: layer normalisation of the rows of x1 · x2 -/

section
variable (x1 : (⟨S100000x128, .f32⟩ : BufTy).Contents (Elt Ideal)) (x2 : (⟨S128x128, .f32⟩ : BufTy).Contents (Elt Ideal)) (r : Fin 100000) (q : Fin 128)

/-- The row sum. -/
theorem ln2_sum : val_main_v72 (F := Ideal) x1 x2 (ix1 r) = ∑ k : Fin 128, Spec.xw x1 x2 r k := by
  rw [val_main_v72_apply, val_main_cst_14_apply, Ideal.ofBits_def, Ideal.ofBits_zero_f32, zero_add]
  refine Finset.sum_congr rfl fun k _ => ?_
  have e : idx_main_v72 (ix1 r) k = ix2 r k := funext fun a => Fin.ext (by match a with | ⟨0, _⟩ => rfl | ⟨1, _⟩ => rfl)
  rw [e, v47_apply]

/-- The row mean, kept in a column of width one. -/
theorem ln2_mean : val_main_v75 (F := Ideal) x1 x2 (ix2 r (0 : Fin 1)) = Spec.mean (fun k => Spec.xw x1 x2 r k) := by
  have e : idx_main_v73 (ix2 r (0 : Fin 1)) = ix1 r := funext fun a => Fin.ext (by match a with | ⟨0, _⟩ => rfl)
  rw [val_main_v75_apply, val_main_v73_apply, val_main_v74_apply, val_main_cst_15_apply, e, ln2_sum, Ideal.hostDivf_def, Ideal.ofBits_def]
  rfl

/-- The deviation from the mean (the copy that is squared). -/
theorem ln2_dev1 : val_main_v77 (F := Ideal) x1 x2 (ix2 r q) = Spec.xw x1 x2 r q - Spec.mean (fun k => Spec.xw x1 x2 r k) := by
  have e : idx_main_v76 (ix2 r q) = ix2 r (0 : Fin 1) := funext fun a => Fin.ext (by match a with | ⟨0, _⟩ => rfl | ⟨1, _⟩ => rfl)
  rw [val_main_v77_apply, val_main_v76_apply, e, ln2_mean, v47_apply, Ideal.subf_def]

/-- The deviation from the mean (the copy that is scaled). -/
theorem ln2_dev2 : val_main_v84 (F := Ideal) x1 x2 (ix2 r q) = Spec.xw x1 x2 r q - Spec.mean (fun k => Spec.xw x1 x2 r k) := by
  have e : idx_main_v83 (ix2 r q) = ix2 r (0 : Fin 1) := funext fun a => Fin.ext (by match a with | ⟨0, _⟩ => rfl | ⟨1, _⟩ => rfl)
  rw [val_main_v84_apply, val_main_v83_apply, e, ln2_mean, v47_apply, Ideal.subf_def]

/-- The sum of the squared deviations. -/
theorem ln2_sqsum : val_main_v79 (F := Ideal) x1 x2 (ix1 r) = ∑ k : Fin 128, (Spec.xw x1 x2 r k - Spec.mean (fun k => Spec.xw x1 x2 r k)) * (Spec.xw x1 x2 r k - Spec.mean (fun k => Spec.xw x1 x2 r k)) := by
  rw [val_main_v79_apply, val_main_cst_16_apply, Ideal.ofBits_def, Ideal.ofBits_zero_f32, zero_add]
  refine Finset.sum_congr rfl fun k _ => ?_
  have e : idx_main_v79 (ix1 r) k = ix2 r k := funext fun a => Fin.ext (by match a with | ⟨0, _⟩ => rfl | ⟨1, _⟩ => rfl)
  rw [e, val_main_v78_apply, ln2_dev1, Ideal.mulf_def]

/-- The reciprocal square root of the variance plus epsilon. -/
theorem ln2_rsqrt : val_main_v87 (F := Ideal) x1 x2 (ix2 r (0 : Fin 1)) = Ideal.rsqrt (Spec.mean (fun k => (Spec.xw x1 x2 r k - Spec.mean (fun k => Spec.xw x1 x2 r k)) * (Spec.xw x1 x2 r k - Spec.mean (fun k => Spec.xw x1 x2 r k))) + Spec.eps) := by
  have e : idx_main_v80 (ix2 r (0 : Fin 1)) = ix1 r := funext fun a => Fin.ext (by match a with | ⟨0, _⟩ => rfl)
  rw [val_main_v87_apply, val_main_v86_apply, val_main_v82_apply, val_main_v80_apply, val_main_v81_apply, val_main_cst_17_apply,
    val_main_v85_apply, val_main_cst_18_apply, e, ln2_sqsum, Ideal.hostUnary_rsqrt_def, Ideal.addf_def, Ideal.hostDivf_def,
    Ideal.ofBits_def, Ideal.ofBits_def]
  rfl

/-- The scale vector, broadcast along the rows. -/
theorem ln2_scale (x6 : (⟨S128, .f32⟩ : BufTy).Contents (Elt Ideal)) : val_main_v91 (F := Ideal) x6 (ix2 r q) = x6 (ix1 q) := by
  have e : idx_main_v90 (idx_main_v91 (ix2 r q)) = ix1 q := funext fun a => Fin.ext (by match a with | ⟨0, _⟩ => rfl)
  rw [val_main_v91_apply, val_main_v90_apply, e]

/-- The shift vector, broadcast along the rows. -/
theorem ln2_shift (x7 : (⟨S128, .f32⟩ : BufTy).Contents (Elt Ideal)) : val_main_v94 (F := Ideal) x7 (ix2 r q) = x7 (ix1 q) := by
  have e : idx_main_v93 (idx_main_v94 (ix2 r q)) = ix1 q := funext fun a => Fin.ext (by match a with | ⟨0, _⟩ => rfl)
  rw [val_main_v94_apply, val_main_v93_apply, e]

end

/-- The second result at (r, q) is the layer normalisation of row r of x1 · x2. -/
theorem out2_apply (x1 : (⟨S100000x128, .f32⟩ : BufTy).Contents (Elt Ideal)) (x2 : (⟨S128x128, .f32⟩ : BufTy).Contents (Elt Ideal)) (x6 x7 : (⟨S128, .f32⟩ : BufTy).Contents (Elt Ideal)) (r : Fin 100000) (q : Fin 128) :
    ReadP.val_main_v95 (F := Ideal) x1 x2 x6 x7 (ix2 r q)
      = Spec.lnRow (fun k => Spec.xw x1 x2 r k) (fun k => x6 (ix1 k)) (fun k => x7 (ix1 k)) q := by
  have e : idx_main_v88 (ix2 r q) = ix2 r (0 : Fin 1) := funext fun a => Fin.ext (by match a with | ⟨0, _⟩ => rfl | ⟨1, _⟩ => rfl)
  rw [val_main_v95_apply, val_main_v92_apply, val_main_v89_apply, val_main_v88_apply, e, ln2_dev2, ln2_rsqrt, ln2_scale, ln2_shift,
    Ideal.addf_def, Ideal.mulf_def, Ideal.mulf_def]
  rfl

/-! ## The row the first result normalises -/

/-- The scattered sum plus the bias x3, at (r, q); the scattered sum itself is left as the program states it. -/
theorem v46_apply (x0 : (⟨S100000x128, .f32⟩ : BufTy).Contents (Elt Ideal)) (x2 : (⟨S128x128, .f32⟩ : BufTy).Contents (Elt Ideal)) (x3 : (⟨S128, .f32⟩ : BufTy).Contents (Elt Ideal)) (x8 : (⟨S2x1600000, .i32⟩ : BufTy).Contents (Elt Ideal)) (r : Fin 100000) (q : Fin 128) :
    ReadP.val_main_v46 (F := Ideal) x0 x2 x3 x8 (ix2 r q) = (ReadP.val_main_v43 (F := Ideal) x0 x2 x8 (ix2 r q) + x3 (ix1 q)) := by
  have e : idx_main_v44 (idx_main_v45 (ix2 r q)) = ix1 q := funext fun a => Fin.ext (by match a with | ⟨0, _⟩ => rfl)
  rw [val_main_v46_apply, val_main_v45_apply, val_main_v44_apply, e, Ideal.addf_def]

/-! ## The first result: layer normalisation of the rows of the scattered sum plus x3 -/

section
variable (x0 : (⟨S100000x128, .f32⟩ : BufTy).Contents (Elt Ideal)) (x2 : (⟨S128x128, .f32⟩ : BufTy).Contents (Elt Ideal)) (x3 : (⟨S128, .f32⟩ : BufTy).Contents (Elt Ideal)) (x8 : (⟨S2x1600000, .i32⟩ : BufTy).Contents (Elt Ideal)) (r : Fin 100000) (q : Fin 128)

/-- The row sum. -/
theorem ln1_sum : val_main_v48 (F := Ideal) x0 x2 x3 x8 (ix1 r) = ∑ k : Fin 128, (ReadP.val_main_v43 (F := Ideal) x0 x2 x8 (ix2 r k) + x3 (ix1 k)) := by
  rw [val_main_v48_apply, val_main_cst_9_apply, Ideal.ofBits_def, Ideal.ofBits_zero_f32, zero_add]
  refine Finset.sum_congr rfl fun k _ => ?_
  have e : idx_main_v48 (ix1 r) k = ix2 r k := funext fun a => Fin.ext (by match a with | ⟨0, _⟩ => rfl | ⟨1, _⟩ => rfl)
  rw [e, v46_apply]

/-- The row mean, kept in a column of width one. -/
theorem ln1_mean : val_main_v51 (F := Ideal) x0 x2 x3 x8 (ix2 r (0 : Fin 1)) = Spec.mean (fun k => (ReadP.val_main_v43 (F := Ideal) x0 x2 x8 (ix2 r k) + x3 (ix1 k))) := by
  have e : idx_main_v49 (ix2 r (0 : Fin 1)) = ix1 r := funext fun a => Fin.ext (by match a with | ⟨0, _⟩ => rfl)
  rw [val_main_v51_apply, val_main_v49_apply, val_main_v50_apply, val_main_cst_10_apply, e, ln1_sum, Ideal.hostDivf_def, Ideal.ofBits_def]
  rfl

/-- The deviation from the mean (the copy that is squared). -/
theorem ln1_dev1 : val_main_v53 (F := Ideal) x0 x2 x3 x8 (ix2 r q) = (ReadP.val_main_v43 (F := Ideal) x0 x2 x8 (ix2 r q) + x3 (ix1 q)) - Spec.mean (fun k => (ReadP.val_main_v43 (F := Ideal) x0 x2 x8 (ix2 r k) + x3 (ix1 k))) := by
  have e : idx_main_v52 (ix2 r q) = ix2 r (0 : Fin 1) := funext fun a => Fin.ext (by match a with | ⟨0, _⟩ => rfl | ⟨1, _⟩ => rfl)
  rw [val_main_v53_apply, val_main_v52_apply, e, ln1_mean, v46_apply, Ideal.subf_def]

/-- The deviation from the mean (the copy that is scaled). -/
theorem ln1_dev2 : val_main_v60 (F := Ideal) x0 x2 x3 x8 (ix2 r q) = (ReadP.val_main_v43 (F := Ideal) x0 x2 x8 (ix2 r q) + x3 (ix1 q)) - Spec.mean (fun k => (ReadP.val_main_v43 (F := Ideal) x0 x2 x8 (ix2 r k) + x3 (ix1 k))) := by
  have e : idx_main_v59 (ix2 r q) = ix2 r (0 : Fin 1) := funext fun a => Fin.ext (by match a with | ⟨0, _⟩ => rfl | ⟨1, _⟩ => rfl)
  rw [val_main_v60_apply, val_main_v59_apply, e, ln1_mean, v46_apply, Ideal.subf_def]

/-- The sum of the squared deviations. -/
theorem ln1_sqsum : val_main_v55 (F := Ideal) x0 x2 x3 x8 (ix1 r) = ∑ k : Fin 128, ((ReadP.val_main_v43 (F := Ideal) x0 x2 x8 (ix2 r k) + x3 (ix1 k)) - Spec.mean (fun k => (ReadP.val_main_v43 (F := Ideal) x0 x2 x8 (ix2 r k) + x3 (ix1 k)))) * ((ReadP.val_main_v43 (F := Ideal) x0 x2 x8 (ix2 r k) + x3 (ix1 k)) - Spec.mean (fun k => (ReadP.val_main_v43 (F := Ideal) x0 x2 x8 (ix2 r k) + x3 (ix1 k)))) := by
  rw [val_main_v55_apply, val_main_cst_11_apply, Ideal.ofBits_def, Ideal.ofBits_zero_f32, zero_add]
  refine Finset.sum_congr rfl fun k _ => ?_
  have e : idx_main_v55 (ix1 r) k = ix2 r k := funext fun a => Fin.ext (by match a with | ⟨0, _⟩ => rfl | ⟨1, _⟩ => rfl)
  rw [e, val_main_v54_apply, ln1_dev1, Ideal.mulf_def]

/-- The reciprocal square root of the variance plus epsilon. -/
theorem ln1_rsqrt : val_main_v63 (F := Ideal) x0 x2 x3 x8 (ix2 r (0 : Fin 1)) = Ideal.rsqrt (Spec.mean (fun k => ((ReadP.val_main_v43 (F := Ideal) x0 x2 x8 (ix2 r k) + x3 (ix1 k)) - Spec.mean (fun k => (ReadP.val_main_v43 (F := Ideal) x0 x2 x8 (ix2 r k) + x3 (ix1 k)))) * ((ReadP.val_main_v43 (F := Ideal) x0 x2 x8 (ix2 r k) + x3 (ix1 k)) - Spec.mean (fun k => (ReadP.val_main_v43 (F := Ideal) x0 x2 x8 (ix2 r k) + x3 (ix1 k))))) + Spec.eps) := by
  have e : idx_main_v56 (ix2 r (0 : Fin 1)) = ix1 r := funext fun a => Fin.ext (by match a with | ⟨0, _⟩ => rfl)
  rw [val_main_v63_apply, val_main_v62_apply, val_main_v58_apply, val_main_v56_apply, val_main_v57_apply, val_main_cst_12_apply,
    val_main_v61_apply, val_main_cst_13_apply, e, ln1_sqsum, Ideal.hostUnary_rsqrt_def, Ideal.addf_def, Ideal.hostDivf_def,
    Ideal.ofBits_def, Ideal.ofBits_def]
  rfl

/-- The scale vector, broadcast along the rows. -/
theorem ln1_scale (x4 : (⟨S128, .f32⟩ : BufTy).Contents (Elt Ideal)) : val_main_v67 (F := Ideal) x4 (ix2 r q) = x4 (ix1 q) := by
  have e : idx_main_v66 (idx_main_v67 (ix2 r q)) = ix1 q := funext fun a => Fin.ext (by match a with | ⟨0, _⟩ => rfl)
  rw [val_main_v67_apply, val_main_v66_apply, e]

/-- The shift vector, broadcast along the rows. -/
theorem ln1_shift (x5 : (⟨S128, .f32⟩ : BufTy).Contents (Elt Ideal)) : val_main_v70 (F := Ideal) x5 (ix2 r q) = x5 (ix1 q) := by
  have e : idx_main_v69 (idx_main_v70 (ix2 r q)) = ix1 q := funext fun a => Fin.ext (by match a with | ⟨0, _⟩ => rfl)
  rw [val_main_v70_apply, val_main_v69_apply, e]

end

/-- The first result at (r, q) is the layer normalisation of row r of the scattered sum plus x3. -/
theorem out1_apply (x0 : (⟨S100000x128, .f32⟩ : BufTy).Contents (Elt Ideal)) (x2 : (⟨S128x128, .f32⟩ : BufTy).Contents (Elt Ideal)) (x3 x4 x5 : (⟨S128, .f32⟩ : BufTy).Contents (Elt Ideal)) (x8 : (⟨S2x1600000, .i32⟩ : BufTy).Contents (Elt Ideal)) (r : Fin 100000) (q : Fin 128) :
    ReadP.val_main_v71 (F := Ideal) x0 x2 x3 x4 x5 x8 (ix2 r q)
      = Spec.lnRow (fun k => ReadP.val_main_v43 (F := Ideal) x0 x2 x8 (ix2 r k) + x3 (ix1 k)) (fun k => x4 (ix1 k)) (fun k => x5 (ix1 k)) q := by
  have e : idx_main_v64 (ix2 r q) = ix2 r (0 : Fin 1) := funext fun a => Fin.ext (by match a with | ⟨0, _⟩ => rfl | ⟨1, _⟩ => rfl)
  rw [val_main_v71_apply, val_main_v68_apply, val_main_v65_apply, val_main_v64_apply, e, ln1_dev2, ln1_rsqrt, ln1_scale, ln1_shift,
    Ideal.addf_def, Ideal.mulf_def, Ideal.mulf_def]
  rfl

end Cert.RefRead

end
-- ==== Proof.Finite.lean ====
/-
  Finiteness out of the precondition.

  The precondition computes, for every float argument x, the conjunction over all entries of |x| < +∞, and the
  conjunction of the eight results; it is assumed to be the bit 1.  Read back entry by entry this says that every entry
  of every float argument is a real number (neither an infinity nor junk).  Only the first and the third argument's
  entries are needed downstream, so only those two are stated.

  Also here: the float 1.0 is a real, and a reciprocal square root guarded by "its argument is above zero" (zero
  otherwise) of a real is a real.
-/
import proofs.«147667_j32315333935196_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Finite

open Idealize.ShloMosaic Idealize.ShloMosaic.ValueIdx
open Cert.Pre_finite_inputs

/-- The scalar shape has one index. -/
instance : Subsingleton S_.Idx := ⟨fun a b => funext fun d => d.elim0⟩

/-- The word `0x7F800000` (exponent all ones, significand zero, sign clear) denotes `⊤`. -/
theorem inf_word : Ideal.ofBits .f32 0x7F800000#32 = (⊤ : EReal) := by
  simp [Ideal.ofBits, Ideal.ieee]

/-- An extended real whose absolute value `max x (-x)` is below `⊤` is a real: `⊥` and `⊤` both have absolute
    value `⊤`. -/
theorem real_of_abs_lt_top (x : EReal) (h : max x (-x) < ⊤) : ∃ r : ℝ, x = (r : EReal) := by
  induction x using EReal.rec with
  | bot => simp at h
  | top => simp at h
  | coe r => exact ⟨r, rfl⟩

/-- The comparison "`|x|` is below the word of `+∞`" coming out `1` says `x` is a real. -/
theorem real_of_cmp (x : EReal)
    (h : Ideal.cmp .olt (max x (-x)) (Ideal.ofBits .f32 0x7F800000#32) = 1#1) : ∃ r : ℝ, x = (r : EReal) := by
  rw [inf_word] at h
  refine real_of_abs_lt_top x ?_
  by_contra hn
  simp [Ideal.cmp, hn] at h

/-- One argument's test: the conjunction over every entry of `|a i| < +∞` is `1` only if every entry is a real. -/
theorem all_real {s : Shape} (hb : S_.BroadcastsInDim s (![] : Fin 0 → Fin s.rank)) {axes : List (Fin s.rank)}
    (hr : s.ReducesTo axes S_) (hu : 0 < S_.numel) (a : FVec Ideal s .f32)
    (h : Host.reduce IntOp.andi
          (cmpf .olt (Host.absf a) (broadcastInDim s ![] hb (constant (F := Ideal) S_ .f32 0x7F800000#32)))
          (constantI S_ 1 1#1) hr hu ix0 = 1#1) (i : s.Idx) : ∃ r : ℝ, a i = (r : EReal) :=
  real_of_cmp (a i) (Host.reduce_andi_all _ _ hr hu ix0 h i)

/-- Under the precondition every entry of the first argument and every entry of the third is a real. -/
theorem entries_real [Facts] (a0 a1 : FVec Ideal S100000x128 .f32) (a2 : FVec Ideal S128x128 .f32)
    (a3 a4 a5 a6 a7 : FVec Ideal S128 .f32) (a8 : IVec S2x1600000 32)
    (h : Cert.Pre_finite_inputs.fn (F := Ideal) a0 a1 a2 a3 a4 a5 a6 a7 a8 = fun _ => 1#1) :
    (∀ i, ∃ r : ℝ, a0 i = (r : EReal)) ∧ (∀ i, ∃ r : ℝ, a2 i = (r : EReal)) := by
  have h0 := congrFun h ix0
  dsimp only [fn, fn_part1, fn_part2] at h0
  obtain ⟨h33, -⟩ := IntOp.andi_eq_one.1 h0
  obtain ⟨h28, -⟩ := IntOp.andi_eq_one.1 h33
  obtain ⟨h23, -⟩ := IntOp.andi_eq_one.1 h28
  obtain ⟨h18, -⟩ := IntOp.andi_eq_one.1 h23
  obtain ⟨h13, -⟩ := IntOp.andi_eq_one.1 h18
  obtain ⟨h8, h12⟩ := IntOp.andi_eq_one.1 h13
  obtain ⟨h3, -⟩ := IntOp.andi_eq_one.1 h8
  exact ⟨all_real _ _ _ a0 h3, all_real _ _ _ a2 h12⟩

/-- The float 1.0 is a real: its exponent field is not all ones. -/
theorem one_real : ∃ r : ℝ, Ideal.ofBits .f32 0x3F800000#32 = (r : EReal) := by
  show ∃ r : ℝ, Ideal.ieee 8 23 (0x3F800000#32 : BitVec 32) = (r : EReal)
  unfold Ideal.ieee
  dsimp only
  rw [if_neg (by decide), if_neg (by decide)]
  exact ⟨_, rfl⟩

/-- A reciprocal square root taken only where its argument is above zero, and zero elsewhere, of a real is a real. -/
theorem dinv_real (d : EReal) (hd : ∃ r : ℝ, d = (r : EReal)) :
    ∃ a : ℝ, Scalar.select (FloatOps.cmpf (F := Ideal) (φ := .f32) .ogt d (Ideal.ofBits .f32 0x00000000#32))
      (Ideal.rsqrt d) (Ideal.ofBits .f32 0x00000000#32) = (a : EReal) := by
  obtain ⟨r, rfl⟩ := hd
  rw [Ideal.ofBits_zero_f32, Ideal.cmpf_def]
  by_cases hr : 0 < r
  · have hc : Ideal.cmp .ogt (r : EReal) 0 = 1#1 := by simp [Ideal.cmp, hr]
    rw [hc, select_one, Ideal.rsqrt_coe, if_neg (not_lt.2 hr.le), if_neg hr.ne']
    exact ⟨_, rfl⟩
  · have hc : Ideal.cmp .ogt (r : EReal) 0 = 0#1 := by simp [Ideal.cmp, hr]
    rw [hc, select_zero]
    exact ⟨0, EReal.coe_zero.symm⟩

end Cert.Finite

end
-- ==== Proof.KRun.lean ====
/-
  The idealized kernel program's run with its two results named.

  The program is three pipelined kernel regions among stretches of host operations.  Every weakly fair execution
  from a memory with zero counters terminates without a fault, and the final memory holds, at every buffer the
  program keeps outside the regions' scopes, the contents obtained by folding the stretches and the regions'
  write-backs over the launch memory.  Read at the two result buffers this names what the run returns; read at the
  nine arguments it says they are unchanged.
-/
import proofs.«147667_j32315333935196_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the two result buffers end at the
    folded contents `W8`, and the nine argument arrays end as launched. -/
theorem run_results : θ_run defs (onTc (τ := τ) (main (F := F))) ⟨m, fun _ => 0, ρ⟩ (fun r => ∀ c : Dev nD,
      r.2.mem ((c.tc : Thread nD τ).loc main_v33) = W8 m ρ c (Proc.devRef .tc main_v33)
      ∧ r.2.mem ((c.tc : Thread nD τ).loc main_v36) = W8 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v33 (by decide)),
       h c _ (mem_uc main_v36 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c)⟩)

end Cert.KernelIdeal.KRun

end
-- ==== Proof.KHost.lean ====
/-
  The contents of the idealized kernel program's buffers at the boundaries between its host stretches and its three
  kernel regions, as terms of the launch memory.

  The host stretches before the first region compute, from the edge list alone, the two index vectors (sources and
  targets, self loops appended), the degree of every node, and the guarded reciprocal square root of the degree; they
  are operation for operation the first operations of the reference program, so they are stated here as the reference's
  own stage functions of the edge list.  The stretch between the first two regions gathers the rows of the first
  region's result at the sources and adds them up at the targets.  Every other buffer a region reads is an argument,
  reshaped or unchanged.
-/
import proofs.«147667_j32315333935196_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.Tactic
import proofs.«147667_j32315333935196_2_alg».proof.Proof.RefReadP

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KHost

open Cert.KernelIdeal Cert.KernelIdeal.Gen

variable (m : (ℓ : Loc nD τ sig) → Buf (Elt Ideal) ℓ) (ρ : Dev nD → PrngReg)

variable (c : Dev nD)

/-! ## The first stretch (18 host operations over the launch memory): the index vectors, the degrees -/

theorem w1_arg0 : (W1 m ρ c (Proc.devRef .tc main_arg0) : S100000x128.Idx → EReal) = (W0 m ρ c (Proc.devRef .tc main_arg0) : S100000x128.Idx → EReal) := by
  show StableHlo.after hostOps0 (W0 m ρ c) (Proc.devRef .tc main_arg0) = _
  generalize W0 m ρ c = X
  after_results
  try rfl

theorem w1_arg1 : (W1 m ρ c (Proc.devRef .tc main_arg1) : S100000x128.Idx → EReal) = (W0 m ρ c (Proc.devRef .tc main_arg1) : S100000x128.Idx → EReal) := by
  show StableHlo.after hostOps0 (W0 m ρ c) (Proc.devRef .tc main_arg1) = _
  generalize W0 m ρ c = X
  after_results
  try rfl

theorem w1_arg2 : (W1 m ρ c (Proc.devRef .tc main_arg2) : S128x128.Idx → EReal) = (W0 m ρ c (Proc.devRef .tc main_arg2) : S128x128.Idx → EReal) := by
  show StableHlo.after hostOps0 (W0 m ρ c) (Proc.devRef .tc main_arg2) = _
  generalize W0 m ρ c = X
  after_results
  try rfl

theorem w1_arg3 : (W1 m ρ c (Proc.devRef .tc main_arg3) : S128.Idx → EReal) = (W0 m ρ c (Proc.devRef .tc main_arg3) : S128.Idx → EReal) := by
  show StableHlo.after hostOps0 (W0 m ρ c) (Proc.devRef .tc main_arg3) = _
  generalize W0 m ρ c = X
  after_results
  try rfl

theorem w1_arg4 : (W1 m ρ c (Proc.devRef .tc main_arg4) : S128.Idx → EReal) = (W0 m ρ c (Proc.devRef .tc main_arg4) : S128.Idx → EReal) := by
  show StableHlo.after hostOps0 (W0 m ρ c) (Proc.devRef .tc main_arg4) = _
  generalize W0 m ρ c = X
  after_results
  try rfl

theorem w1_arg5 : (W1 m ρ c (Proc.devRef .tc main_arg5) : S128.Idx → EReal) = (W0 m ρ c (Proc.devRef .tc main_arg5) : S128.Idx → EReal) := by
  show StableHlo.after hostOps0 (W0 m ρ c) (Proc.devRef .tc main_arg5) = _
  generalize W0 m ρ c = X
  after_results
  try rfl

theorem w1_arg6 : (W1 m ρ c (Proc.devRef .tc main_arg6) : S128.Idx → EReal) = (W0 m ρ c (Proc.devRef .tc main_arg6) : S128.Idx → EReal) := by
  show StableHlo.after hostOps0 (W0 m ρ c) (Proc.devRef .tc main_arg6) = _
  generalize W0 m ρ c = X
  after_results
  try rfl

theorem w1_arg7 : (W1 m ρ c (Proc.devRef .tc main_arg7) : S128.Idx → EReal) = (W0 m ρ c (Proc.devRef .tc main_arg7) : S128.Idx → EReal) := by
  show StableHlo.after hostOps0 (W0 m ρ c) (Proc.devRef .tc main_arg7) = _
  generalize W0 m ρ c = X
  after_results
  try rfl

theorem w1_v5 : (W1 m ρ c (Proc.devRef .tc main_v5) : S1700000.Idx → BitVec 32) = Cert.ReferenceIdeal.ReadP.val_main_v5 (F := Ideal) (W0 m ρ c (Proc.devRef .tc main_arg8) : S2x1600000.Idx → BitVec 32) := by
  show StableHlo.after hostOps0 (W0 m ρ c) (Proc.devRef .tc main_v5) = _
  generalize W0 m ρ c = X
  after_results
  try rfl

theorem w1_v6 : (W1 m ρ c (Proc.devRef .tc main_v6) : S1700000.Idx → BitVec 32) = Cert.ReferenceIdeal.ReadP.val_main_v6 (F := Ideal) (W0 m ρ c (Proc.devRef .tc main_arg8) : S2x1600000.Idx → BitVec 32) := by
  show StableHlo.after hostOps0 (W0 m ρ c) (Proc.devRef .tc main_v6) = _
  generalize W0 m ρ c = X
  after_results
  try rfl

theorem w1_v12 : (W1 m ρ c (Proc.devRef .tc main_v12) : S100000.Idx → BitVec 1) = Cert.ReferenceIdeal.ReadP.val_main_v12 (F := Ideal) (W0 m ρ c (Proc.devRef .tc main_arg8) : S2x1600000.Idx → BitVec 32) := by
  show StableHlo.after hostOps0 (W0 m ρ c) (Proc.devRef .tc main_v12) = _
  generalize W0 m ρ c = X
  after_results
  try rfl

theorem w1_v13 : (W1 m ρ c (Proc.devRef .tc main_v13) : S100000.Idx → EReal) = Cert.ReferenceIdeal.ReadP.val_main_v13 (F := Ideal) (W0 m ρ c (Proc.devRef .tc main_arg8) : S2x1600000.Idx → BitVec 32) := by
  show StableHlo.after hostOps0 (W0 m ρ c) (Proc.devRef .tc main_v13) = _
  generalize W0 m ρ c = X
  after_results
  try rfl

theorem w1_cst2 : (W1 m ρ c (Proc.devRef .tc main_cst_2) : S_.Idx → EReal) = constant (F := Ideal) S_ .f32 0x00000000#32 := by
  show StableHlo.after hostOps0 (W0 m ρ c) (Proc.devRef .tc main_cst_2) = _
  generalize W0 m ρ c = X
  after_results
  try rfl

/-! ## The guarded reciprocal square root (3 host operations), and the two operations before the first region -/

theorem w2_v14' : (W2 m ρ c (Proc.devRef .tc main_v14) : S100000.Idx → EReal) = select (W1 m ρ c (Proc.devRef .tc main_v12) : S100000.Idx → BitVec 1) (W1 m ρ c (Proc.devRef .tc main_v13) : S100000.Idx → EReal) (broadcastInDim S100000 ![] bcast_S_S100000 (id (W1 m ρ c (Proc.devRef .tc main_cst_2) : S_.Idx → EReal))) := by
  show StableHlo.after hostOps0_1 (W1 m ρ c) (Proc.devRef .tc main_v14) = _
  generalize W1 m ρ c = X
  after_results_simp
  rfl

theorem w2_v14 : (W2 m ρ c (Proc.devRef .tc main_v14) : S100000.Idx → EReal) = Cert.ReferenceIdeal.ReadP.val_main_v14 (F := Ideal) (W0 m ρ c (Proc.devRef .tc main_arg8) : S2x1600000.Idx → BitVec 32) := by
  rw [w2_v14', w1_v12, w1_v13, w1_cst2]
  rfl

theorem w2_arg0 : (W2 m ρ c (Proc.devRef .tc main_arg0) : S100000x128.Idx → EReal) = (W1 m ρ c (Proc.devRef .tc main_arg0) : S100000x128.Idx → EReal) := by
  show StableHlo.after hostOps0_1 (W1 m ρ c) (Proc.devRef .tc main_arg0) = _
  generalize W1 m ρ c = X
  after_results_simp

theorem w2_arg1 : (W2 m ρ c (Proc.devRef .tc main_arg1) : S100000x128.Idx → EReal) = (W1 m ρ c (Proc.devRef .tc main_arg1) : S100000x128.Idx → EReal) := by
  show StableHlo.after hostOps0_1 (W1 m ρ c) (Proc.devRef .tc main_arg1) = _
  generalize W1 m ρ c = X
  after_results_simp

theorem w2_arg2 : (W2 m ρ c (Proc.devRef .tc main_arg2) : S128x128.Idx → EReal) = (W1 m ρ c (Proc.devRef .tc main_arg2) : S128x128.Idx → EReal) := by
  show StableHlo.after hostOps0_1 (W1 m ρ c) (Proc.devRef .tc main_arg2) = _
  generalize W1 m ρ c = X
  after_results_simp

theorem w2_arg3 : (W2 m ρ c (Proc.devRef .tc main_arg3) : S128.Idx → EReal) = (W1 m ρ c (Proc.devRef .tc main_arg3) : S128.Idx → EReal) := by
  show StableHlo.after hostOps0_1 (W1 m ρ c) (Proc.devRef .tc main_arg3) = _
  generalize W1 m ρ c = X
  after_results_simp

theorem w2_arg4 : (W2 m ρ c (Proc.devRef .tc main_arg4) : S128.Idx → EReal) = (W1 m ρ c (Proc.devRef .tc main_arg4) : S128.Idx → EReal) := by
  show StableHlo.after hostOps0_1 (W1 m ρ c) (Proc.devRef .tc main_arg4) = _
  generalize W1 m ρ c = X
  after_results_simp

theorem w2_arg5 : (W2 m ρ c (Proc.devRef .tc main_arg5) : S128.Idx → EReal) = (W1 m ρ c (Proc.devRef .tc main_arg5) : S128.Idx → EReal) := by
  show StableHlo.after hostOps0_1 (W1 m ρ c) (Proc.devRef .tc main_arg5) = _
  generalize W1 m ρ c = X
  after_results_simp

theorem w2_arg6 : (W2 m ρ c (Proc.devRef .tc main_arg6) : S128.Idx → EReal) = (W1 m ρ c (Proc.devRef .tc main_arg6) : S128.Idx → EReal) := by
  show StableHlo.after hostOps0_1 (W1 m ρ c) (Proc.devRef .tc main_arg6) = _
  generalize W1 m ρ c = X
  after_results_simp

theorem w2_arg7 : (W2 m ρ c (Proc.devRef .tc main_arg7) : S128.Idx → EReal) = (W1 m ρ c (Proc.devRef .tc main_arg7) : S128.Idx → EReal) := by
  show StableHlo.after hostOps0_1 (W1 m ρ c) (Proc.devRef .tc main_arg7) = _
  generalize W1 m ρ c = X
  after_results_simp

theorem w2_v5 : (W2 m ρ c (Proc.devRef .tc main_v5) : S1700000.Idx → BitVec 32) = (W1 m ρ c (Proc.devRef .tc main_v5) : S1700000.Idx → BitVec 32) := by
  show StableHlo.after hostOps0_1 (W1 m ρ c) (Proc.devRef .tc main_v5) = _
  generalize W1 m ρ c = X
  after_results_simp

theorem w2_v6 : (W2 m ρ c (Proc.devRef .tc main_v6) : S1700000.Idx → BitVec 32) = (W1 m ρ c (Proc.devRef .tc main_v6) : S1700000.Idx → BitVec 32) := by
  show StableHlo.after hostOps0_1 (W1 m ρ c) (Proc.devRef .tc main_v6) = _
  generalize W1 m ρ c = X
  after_results_simp

theorem w3_arg0 : (W3 m ρ c (Proc.devRef .tc main_arg0) : S100000x128.Idx → EReal) = (W2 m ρ c (Proc.devRef .tc main_arg0) : S100000x128.Idx → EReal) := by
  show StableHlo.after hostOps0_2 (W2 m ρ c) (Proc.devRef .tc main_arg0) = _
  generalize W2 m ρ c = X
  after_results
  try rfl

theorem w3_arg1 : (W3 m ρ c (Proc.devRef .tc main_arg1) : S100000x128.Idx → EReal) = (W2 m ρ c (Proc.devRef .tc main_arg1) : S100000x128.Idx → EReal) := by
  show StableHlo.after hostOps0_2 (W2 m ρ c) (Proc.devRef .tc main_arg1) = _
  generalize W2 m ρ c = X
  after_results
  try rfl

theorem w3_arg3 : (W3 m ρ c (Proc.devRef .tc main_arg3) : S128.Idx → EReal) = (W2 m ρ c (Proc.devRef .tc main_arg3) : S128.Idx → EReal) := by
  show StableHlo.after hostOps0_2 (W2 m ρ c) (Proc.devRef .tc main_arg3) = _
  generalize W2 m ρ c = X
  after_results
  try rfl

theorem w3_arg4 : (W3 m ρ c (Proc.devRef .tc main_arg4) : S128.Idx → EReal) = (W2 m ρ c (Proc.devRef .tc main_arg4) : S128.Idx → EReal) := by
  show StableHlo.after hostOps0_2 (W2 m ρ c) (Proc.devRef .tc main_arg4) = _
  generalize W2 m ρ c = X
  after_results
  try rfl

theorem w3_arg5 : (W3 m ρ c (Proc.devRef .tc main_arg5) : S128.Idx → EReal) = (W2 m ρ c (Proc.devRef .tc main_arg5) : S128.Idx → EReal) := by
  show StableHlo.after hostOps0_2 (W2 m ρ c) (Proc.devRef .tc main_arg5) = _
  generalize W2 m ρ c = X
  after_results
  try rfl

theorem w3_arg6 : (W3 m ρ c (Proc.devRef .tc main_arg6) : S128.Idx → EReal) = (W2 m ρ c (Proc.devRef .tc main_arg6) : S128.Idx → EReal) := by
  show StableHlo.after hostOps0_2 (W2 m ρ c) (Proc.devRef .tc main_arg6) = _
  generalize W2 m ρ c = X
  after_results
  try rfl

theorem w3_arg7 : (W3 m ρ c (Proc.devRef .tc main_arg7) : S128.Idx → EReal) = (W2 m ρ c (Proc.devRef .tc main_arg7) : S128.Idx → EReal) := by
  show StableHlo.after hostOps0_2 (W2 m ρ c) (Proc.devRef .tc main_arg7) = _
  generalize W2 m ρ c = X
  after_results
  try rfl

theorem w3_v5 : (W3 m ρ c (Proc.devRef .tc main_v5) : S1700000.Idx → BitVec 32) = (W2 m ρ c (Proc.devRef .tc main_v5) : S1700000.Idx → BitVec 32) := by
  show StableHlo.after hostOps0_2 (W2 m ρ c) (Proc.devRef .tc main_v5) = _
  generalize W2 m ρ c = X
  after_results
  try rfl

theorem w3_v6 : (W3 m ρ c (Proc.devRef .tc main_v6) : S1700000.Idx → BitVec 32) = (W2 m ρ c (Proc.devRef .tc main_v6) : S1700000.Idx → BitVec 32) := by
  show StableHlo.after hostOps0_2 (W2 m ρ c) (Proc.devRef .tc main_v6) = _
  generalize W2 m ρ c = X
  after_results
  try rfl

theorem w3_v14 : (W3 m ρ c (Proc.devRef .tc main_v14) : S100000.Idx → EReal) = (W2 m ρ c (Proc.devRef .tc main_v14) : S100000.Idx → EReal) := by
  show StableHlo.after hostOps0_2 (W2 m ρ c) (Proc.devRef .tc main_v14) = _
  generalize W2 m ρ c = X
  after_results
  try rfl

theorem w3_v15 : (W3 m ρ c (Proc.devRef .tc main_v15) : S128x128.Idx → EReal) = truncf (F := Ideal) .bf16 (W2 m ρ c (Proc.devRef .tc main_arg2) : S128x128.Idx → EReal) bitsLt_bf16_f32 := by
  show StableHlo.after hostOps0_2 (W2 m ρ c) (Proc.devRef .tc main_v15) = _
  generalize W2 m ρ c = X
  after_results
  try rfl

theorem w3_v16 : (W3 m ρ c (Proc.devRef .tc main_v16) : S100000x1.Idx → EReal) = shapeCast S100000x1 (W2 m ρ c (Proc.devRef .tc main_v14) : S100000.Idx → EReal) shapeCasts_S100000_S100000x1 := by
  show StableHlo.after hostOps0_2 (W2 m ρ c) (Proc.devRef .tc main_v16) = _
  generalize W2 m ρ c = X
  after_results
  try rfl
/-! ## Across the first region: it writes its result array only -/

theorem w4_arg1 : W4 m ρ c (Proc.devRef .tc main_arg1) = W3 m ρ c (Proc.devRef .tc main_arg1) := W4_of_ne m ρ c main_arg1 (by decide)

theorem w4_arg3 : W4 m ρ c (Proc.devRef .tc main_arg3) = W3 m ρ c (Proc.devRef .tc main_arg3) := W4_of_ne m ρ c main_arg3 (by decide)

theorem w4_arg4 : W4 m ρ c (Proc.devRef .tc main_arg4) = W3 m ρ c (Proc.devRef .tc main_arg4) := W4_of_ne m ρ c main_arg4 (by decide)

theorem w4_arg5 : W4 m ρ c (Proc.devRef .tc main_arg5) = W3 m ρ c (Proc.devRef .tc main_arg5) := W4_of_ne m ρ c main_arg5 (by decide)

theorem w4_arg6 : W4 m ρ c (Proc.devRef .tc main_arg6) = W3 m ρ c (Proc.devRef .tc main_arg6) := W4_of_ne m ρ c main_arg6 (by decide)

theorem w4_arg7 : W4 m ρ c (Proc.devRef .tc main_arg7) = W3 m ρ c (Proc.devRef .tc main_arg7) := W4_of_ne m ρ c main_arg7 (by decide)

theorem w4_v5 : W4 m ρ c (Proc.devRef .tc main_v5) = W3 m ρ c (Proc.devRef .tc main_v5) := W4_of_ne m ρ c main_v5 (by decide)

theorem w4_v6 : W4 m ρ c (Proc.devRef .tc main_v6) = W3 m ρ c (Proc.devRef .tc main_v6) := W4_of_ne m ρ c main_v6 (by decide)

theorem w4_v14 : W4 m ρ c (Proc.devRef .tc main_v14) = W3 m ρ c (Proc.devRef .tc main_v14) := W4_of_ne m ρ c main_v14 (by decide)

theorem w4_v15 : W4 m ρ c (Proc.devRef .tc main_v15) = W3 m ρ c (Proc.devRef .tc main_v15) :=
  (W4_arr m ρ c 1).trans (((dat0 (V3 m ρ) c).arrAt_in 1 rfl _).trans (A_eq0 (V3 m ρ) c 1))

/-! ## The stretch between the first two regions (18 host operations) -/

theorem w5_v28 : (W5 m ρ c (Proc.devRef .tc main_v28) : S100000x128.Idx → EReal) = Host.scatterAdd (F := Ideal) scatter_S100000x128_S1700000x1_S1700000x128_1_0_0_1
      (broadcastInDim S100000x128 ![] bcast_S_S100000x128 (constant (F := Ideal) S_ .f32 0x00000000#32))
      (broadcastInDim S1700000x1 ![0] bcast_S1700000_S1700000x1_0 (W4 m ρ c (Proc.devRef .tc main_v6) : S1700000.Idx → BitVec 32))
      (extf (F := Ideal) .f32 (Host.gather gather_S100000x128_S1700000x1_S1700000x128_1_0_n_n_0_1_1128 (W4 m ρ c (Proc.devRef .tc main_v17) : S100000x128.Idx → EReal)
        (broadcastInDim S1700000x1 ![0] bcast_S1700000_S1700000x1_0
          (select (cmpi .slt (W4 m ρ c (Proc.devRef .tc main_v5) : S1700000.Idx → BitVec 32) (broadcastInDim S1700000 ![] bcast_S_S1700000 (constantI S_ 32 0#32)))
            (addi (W4 m ρ c (Proc.devRef .tc main_v5) : S1700000.Idx → BitVec 32) (broadcastInDim S1700000 ![] bcast_S_S1700000 (constantI S_ 32 100000#32)))
            (W4 m ρ c (Proc.devRef .tc main_v5) : S1700000.Idx → BitVec 32)))) bitsLt_bf16_f32) := by
  show StableHlo.after hostOps1 (W4 m ρ c) (Proc.devRef .tc main_v28) = _
  generalize W4 m ρ c = X
  after_results
  try rfl

theorem w5_v29 : (W5 m ρ c (Proc.devRef .tc main_v29) : S100000x1.Idx → EReal) = shapeCast S100000x1 (W4 m ρ c (Proc.devRef .tc main_v14) : S100000.Idx → EReal) shapeCasts_S100000_S100000x1 := by
  show StableHlo.after hostOps1 (W4 m ρ c) (Proc.devRef .tc main_v29) = _
  generalize W4 m ρ c = X
  after_results
  try rfl

theorem w5_v30 : (W5 m ρ c (Proc.devRef .tc main_v30) : S1x128.Idx → EReal) = shapeCast S1x128 (W4 m ρ c (Proc.devRef .tc main_arg3) : S128.Idx → EReal) shapeCasts_S128_S1x128 := by
  show StableHlo.after hostOps1 (W4 m ρ c) (Proc.devRef .tc main_v30) = _
  generalize W4 m ρ c = X
  after_results
  try rfl

theorem w5_v31 : (W5 m ρ c (Proc.devRef .tc main_v31) : S1x128.Idx → EReal) = shapeCast S1x128 (W4 m ρ c (Proc.devRef .tc main_arg4) : S128.Idx → EReal) shapeCasts_S128_S1x128 := by
  show StableHlo.after hostOps1 (W4 m ρ c) (Proc.devRef .tc main_v31) = _
  generalize W4 m ρ c = X
  after_results
  try rfl

theorem w5_v32 : (W5 m ρ c (Proc.devRef .tc main_v32) : S1x128.Idx → EReal) = shapeCast S1x128 (W4 m ρ c (Proc.devRef .tc main_arg5) : S128.Idx → EReal) shapeCasts_S128_S1x128 := by
  show StableHlo.after hostOps1 (W4 m ρ c) (Proc.devRef .tc main_v32) = _
  generalize W4 m ρ c = X
  after_results
  try rfl

theorem w5_arg1 : (W5 m ρ c (Proc.devRef .tc main_arg1) : S100000x128.Idx → EReal) = (W4 m ρ c (Proc.devRef .tc main_arg1) : S100000x128.Idx → EReal) := by
  show StableHlo.after hostOps1 (W4 m ρ c) (Proc.devRef .tc main_arg1) = _
  generalize W4 m ρ c = X
  after_results
  try rfl

theorem w5_arg6 : (W5 m ρ c (Proc.devRef .tc main_arg6) : S128.Idx → EReal) = (W4 m ρ c (Proc.devRef .tc main_arg6) : S128.Idx → EReal) := by
  show StableHlo.after hostOps1 (W4 m ρ c) (Proc.devRef .tc main_arg6) = _
  generalize W4 m ρ c = X
  after_results
  try rfl

theorem w5_arg7 : (W5 m ρ c (Proc.devRef .tc main_arg7) : S128.Idx → EReal) = (W4 m ρ c (Proc.devRef .tc main_arg7) : S128.Idx → EReal) := by
  show StableHlo.after hostOps1 (W4 m ρ c) (Proc.devRef .tc main_arg7) = _
  generalize W4 m ρ c = X
  after_results
  try rfl

theorem w5_v15 : (W5 m ρ c (Proc.devRef .tc main_v15) : S128x128.Idx → EReal) = (W4 m ρ c (Proc.devRef .tc main_v15) : S128x128.Idx → EReal) := by
  show StableHlo.after hostOps1 (W4 m ρ c) (Proc.devRef .tc main_v15) = _
  generalize W4 m ρ c = X
  after_results
  try rfl

/-! ## Across the second region, and the two reshapes before the third -/

theorem w6_arg1 : W6 m ρ c (Proc.devRef .tc main_arg1) = W5 m ρ c (Proc.devRef .tc main_arg1) := W6_of_ne m ρ c main_arg1 (by decide)

theorem w6_arg6 : W6 m ρ c (Proc.devRef .tc main_arg6) = W5 m ρ c (Proc.devRef .tc main_arg6) := W6_of_ne m ρ c main_arg6 (by decide)

theorem w6_arg7 : W6 m ρ c (Proc.devRef .tc main_arg7) = W5 m ρ c (Proc.devRef .tc main_arg7) := W6_of_ne m ρ c main_arg7 (by decide)

theorem w6_v15 : W6 m ρ c (Proc.devRef .tc main_v15) = W5 m ρ c (Proc.devRef .tc main_v15) := W6_of_ne m ρ c main_v15 (by decide)

theorem w7_v34 : (W7 m ρ c (Proc.devRef .tc main_v34) : S1x128.Idx → EReal) = shapeCast S1x128 (W6 m ρ c (Proc.devRef .tc main_arg6) : S128.Idx → EReal) shapeCasts_S128_S1x128 := by
  show StableHlo.after hostOps2 (W6 m ρ c) (Proc.devRef .tc main_v34) = _
  generalize W6 m ρ c = X
  after_results
  try rfl

theorem w7_v35 : (W7 m ρ c (Proc.devRef .tc main_v35) : S1x128.Idx → EReal) = shapeCast S1x128 (W6 m ρ c (Proc.devRef .tc main_arg7) : S128.Idx → EReal) shapeCasts_S128_S1x128 := by
  show StableHlo.after hostOps2 (W6 m ρ c) (Proc.devRef .tc main_v35) = _
  generalize W6 m ρ c = X
  after_results
  try rfl

theorem w7_arg1 : (W7 m ρ c (Proc.devRef .tc main_arg1) : S100000x128.Idx → EReal) = (W6 m ρ c (Proc.devRef .tc main_arg1) : S100000x128.Idx → EReal) := by
  show StableHlo.after hostOps2 (W6 m ρ c) (Proc.devRef .tc main_arg1) = _
  generalize W6 m ρ c = X
  after_results
  try rfl

theorem w7_v15 : (W7 m ρ c (Proc.devRef .tc main_v15) : S128x128.Idx → EReal) = (W6 m ρ c (Proc.devRef .tc main_v15) : S128x128.Idx → EReal) := by
  show StableHlo.after hostOps2 (W6 m ρ c) (Proc.devRef .tc main_v15) = _
  generalize W6 m ρ c = X
  after_results
  try rfl

theorem w7_v33 : (W7 m ρ c (Proc.devRef .tc main_v33) : S100000x128.Idx → EReal) = (W6 m ρ c (Proc.devRef .tc main_v33) : S100000x128.Idx → EReal) := by
  show StableHlo.after hostOps2 (W6 m ρ c) (Proc.devRef .tc main_v33) = _
  generalize W6 m ρ c = X
  after_results
  try rfl

theorem w8_v33 : W8 m ρ c (Proc.devRef .tc main_v33) = W7 m ρ c (Proc.devRef .tc main_v33) := W8_of_ne m ρ c main_v33 (by decide)

end Cert.KernelIdeal.KHost

end
-- ==== Proof.KArr.lean ====
/-
  What each of the three kernel regions leaves in its result array, as ONE function of the arrays the region finds.

  Every region walks the 100000 rows in 25 blocks of 4000 rows; at grid point t the row-blocked windows hold rows
  4000 t … 4000 t + 3999 and the windows fetched once hold their whole small array.  The body's stored value at
  (p, q) depends only on row p of the row-blocked operands and on the small arrays, so what point t writes back is
  block t of one whole-array function, the 25 blocks tile the array, and the array ends holding that function.
  The body's arithmetic enters as a hypothesis `hpay` (the stored value at (p, q) as a function `f` of the row);
  it is proved elsewhere.
-/
import proofs.«147667_j32315333935196_2_alg».proof.Proof.Gen.KernelIdeal.Frame
import proofs.«147667_j32315333935196_2_alg».proof.Proof.Spec
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KArr

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## Region 0: each row of the first operand times the matrix, scaled by the row's entry of a column -/

/-- The printed index maps of region 0's windows at a grid point: a row-blocked window is at block row `t`, a window
    fetched once is at block (0, 0). -/
structure Idx0 (t : Fin cfg0.N) : Prop where
  w00 : win0_0.index t (0 : Fin 2) = t.val
  w01 : win0_0.index t (1 : Fin 2) = 0
  w10 : win0_1.index t (0 : Fin 2) = 0
  w11 : win0_1.index t (1 : Fin 2) = 0
  w20 : win0_2.index t (0 : Fin 2) = t.val
  w21 : win0_2.index t (1 : Fin 2) = 0
  w30 : win0_3.index t (0 : Fin 2) = t.val
  w31 : win0_3.index t (1 : Fin 2) = 0

instance (t : Fin grid0.N) : Decidable (Idx0 t) := by
  refine decidable_of_iff (win0_0.index t (0 : Fin 2) = t.val ∧ win0_0.index t (1 : Fin 2) = 0 ∧ win0_1.index t (0 : Fin 2) = 0 ∧ win0_1.index t (1 : Fin 2) = 0 ∧ win0_2.index t (0 : Fin 2) = t.val ∧ win0_2.index t (1 : Fin 2) = 0 ∧ win0_3.index t (0 : Fin 2) = t.val ∧ win0_3.index t (1 : Fin 2) = 0) ⟨fun h => ?_, fun h => ?_⟩
  · obtain ⟨h00, h01, h10, h11, h20, h21, h30, h31⟩ := h; exact ⟨h00, h01, h10, h11, h20, h21, h30, h31⟩
  · exact ⟨h.w00, h.w01, h.w10, h.w11, h.w20, h.w21, h.w30, h.w31⟩

theorem idx0 : ∀ t : Fin cfg0.N, Idx0 t := (by decide +kernel : ∀ t : Fin grid0.N, Idx0 t)

theorem blk0_0 (c : Dev nD) (t : Fin cfg0.N) (p : Fin 4000) (k : Fin 128) (r : Fin 100000) (hr : r.val = t.val * 4000 + p.val) :
    (iblk0 V c 0 t : Vec Ideal S4000x128 .f32) (ix2 p k) = (V c main_arg0 : S100000x128.Idx → EReal) (ix2 r k) := by
  have e := idx0 t
  unfold iblk0
  rw [View.read_apply]
  show V c main_arg0 _ = V c main_arg0 _
  congr 1
  funext a
  apply Fin.ext
  match a with
  | ⟨0, _⟩ => show win0_0.index t 0 * 4000 + 1 * p.val = r.val; rw [e.w00, hr]; omega
  | ⟨1, _⟩ => show win0_0.index t 1 * 128 + 1 * k.val = k.val; rw [e.w01]; omega

theorem blk0_1 (c : Dev nD) (t : Fin cfg0.N) :
    (iblk0 V c 1 t : Vec Ideal S128x128 .bf16) = (V c main_v15 : S128x128.Idx → EReal) := by
  have e := idx0 t
  funext x
  unfold iblk0
  rw [View.read_apply]
  show V c main_v15 _ = V c main_v15 _
  congr 1
  funext a
  apply Fin.ext
  match a with
  | ⟨0, _⟩ => show win0_1.index t 0 * 128 + 1 * (x 0).val = (x 0).val; rw [e.w10]; omega
  | ⟨1, _⟩ => show win0_1.index t 1 * 128 + 1 * (x 1).val = (x 1).val; rw [e.w11]; omega

theorem blk0_2 (c : Dev nD) (t : Fin cfg0.N) (p : Fin 4000) (r : Fin 100000) (hr : r.val = t.val * 4000 + p.val) :
    (iblk0 V c 2 t : Vec Ideal S4000x1 .f32) (ix2 p 0) = (V c main_v16 : S100000x1.Idx → EReal) (ix2 r 0) := by
  have e := idx0 t
  unfold iblk0
  rw [View.read_apply]
  show V c main_v16 _ = V c main_v16 _
  congr 1
  funext a
  apply Fin.ext
  match a with
  | ⟨0, _⟩ => show win0_2.index t 0 * 4000 + 1 * p.val = r.val; rw [e.w20, hr]; omega
  | ⟨1, _⟩ => show win0_2.index t 1 * 1 + 1 * 0 = 0; rw [e.w21]

/-- The array region 0 leaves: row by row, a function `f` of the row of the first operand, the matrix, and the row's
    entry of the column. -/
def G0 (f : (Fin 128 → EReal) → (S128x128.Idx → EReal) → EReal → Fin 128 → EReal)
    (a0 : S100000x128.Idx → EReal) (a1 : S128x128.Idx → EReal) (a2 : S100000x1.Idx → EReal) : S100000x128.Idx → EReal :=
  fun i => f (fun k => a0 (ix2 ⟨(i 0).val, (i 0).isLt⟩ k)) a1 (a2 (ix2 ⟨(i 0).val, (i 0).isLt⟩ 0)) ⟨(i 1).val, (i 1).isLt⟩

theorem flushed0 (f : (Fin 128 → EReal) → (S128x128.Idx → EReal) → EReal → Fin 128 → EReal)
    (hpay : ∀ (v0 : Vec Ideal S4000x128 .f32) (v2 : Vec Ideal S128x128 .bf16) (v5 : Vec Ideal S4000x1 .f32) (p : Fin 4000) (q : Fin 128),
      k0_pay1 (F := Ideal) v0 v2 v5 (ix2 p q) = f (fun k => v0 (ix2 p k)) v2 (v5 (ix2 p 0)) q)
    (c : Dev nD) (t : Fin cfg0.N) :
    (dat0 (F := Ideal) V c).flushed 3 t = ((cfg0.win 3).blk t).view.read (Elt Ideal) (G0 f (V c main_arg0) (V c main_v15) (V c main_v16)) := by
  show (cfg0.win 3).cut (grid0.coords t) ((dat0 V c).after 3 t) = _
  rw [after0_3]
  unfold out0_3
  rw [View.canon_unit_zero hz]
  simp only [View.ld_unit_zero (S := S4000x128) hz, View.ld_unit_zero (S := S128x128) hz, View.ld_unit_zero (S := S4000x1) hz, View.ld_unit_zero (S := S1x128) hz]
  have e := idx0 t
  funext j
  obtain ⟨p, q, rfl⟩ : ∃ (p : Fin 4000) (q : Fin 128), j = ix2 p q := ⟨j 0, j 1, eq_ix2 j⟩
  have hN : cfg0.N = 25 := N_0
  have hb : t.val * 4000 + p.val < 100000 := by have := t.isLt; have := p.isLt; omega
  rw [View.read_apply]
  have hemb : ((View.whole main_v17).slice ((win0 3).rect t)).emb (ix2 p q) = (ix2 (⟨t.val * 4000 + p.val, hb⟩ : Fin 100000) q : S100000x128.Idx) := by
    funext a
    apply Fin.ext
    match a with
    | ⟨0, _⟩ => show win0_3.index t 0 * 4000 + 1 * p.val = t.val * 4000 + p.val; rw [e.w30]; omega
    | ⟨1, _⟩ => show win0_3.index t 1 * 128 + 1 * q.val = q.val; rw [e.w31]; omega
  rw [hemb]
  show k0_pay1 (iblk0 V c 0 t) (iblk0 V c 1 t) (iblk0 V c 2 t) (ix2 p q) = _
  rw [hpay, blk0_1 V c t, blk0_2 V c t p ⟨t.val * 4000 + p.val, hb⟩ rfl,
    show (fun k => (iblk0 V c 0 t : Vec Ideal S4000x128 .f32) (ix2 p k)) = fun k => (V c main_arg0 : S100000x128.Idx → EReal) (ix2 (⟨t.val * 4000 + p.val, hb⟩ : Fin 100000) k)
      from funext fun k => blk0_0 V c t p k ⟨t.val * 4000 + p.val, hb⟩ rfl]
  rfl

theorem mem_blk0 (t : Fin cfg0.N) (i : S100000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v17).slice (win0_3.rect t)).set ↔ _
  rw [View.set_slice_whole, Rect.mem_set_unit]
  exact Iff.rfl

/-- Every row of the result lies in the block of the point `row / 4000`. -/
theorem cover0 (i : S100000x128.Idx) : ∃ t : Fin cfg0.N, (cfg0.win 3).flush t = true ∧ i ∈ ((cfg0.win 3).blk t).view.set := by
  have hN : cfg0.N = 25 := N_0
  have hi0 : (i 0).val < 100000 := (i 0).isLt
  have hi1 : (i 1).val < 128 := (i 1).isLt
  refine ⟨⟨(i 0).val / 4000, by omega⟩, flush0_3 _, ?_⟩
  have e := idx0 ⟨(i 0).val / 4000, by omega⟩
  rw [mem_blk0]
  intro a
  match a with
  | ⟨0, _⟩ => show win0_3.index _ 0 * 4000 ≤ (i 0).val ∧ (i 0).val < win0_3.index _ 0 * 4000 + 4000; rw [e.w30]; show (i 0).val / 4000 * 4000 ≤ (i 0).val ∧ (i 0).val < (i 0).val / 4000 * 4000 + 4000; omega
  | ⟨1, _⟩ => show win0_3.index _ 1 * 128 ≤ (i 1).val ∧ (i 1).val < win0_3.index _ 1 * 128 + 128; rw [e.w31]; omega

/-- After region 0 its result array holds `G0` of the arrays the region found. -/
theorem final0 (f : (Fin 128 → EReal) → (S128x128.Idx → EReal) → EReal → Fin 128 → EReal)
    (hpay : ∀ (v0 : Vec Ideal S4000x128 .f32) (v2 : Vec Ideal S128x128 .bf16) (v5 : Vec Ideal S4000x1 .f32) (p : Fin 4000) (q : Fin 128),
      k0_pay1 (F := Ideal) v0 v2 v5 (ix2 p q) = f (fun k => v0 (ix2 p k)) v2 (v5 (ix2 p 0)) q)
    (c : Dev nD) :
    (dat0 (F := Ideal) V c).arrAt 3 cfg0.N = G0 f (V c main_arg0) (V c main_v15) (V c main_v16) :=
  (dat0 (F := Ideal) V c).arrAt_eq_of_cover 3 (G0 f (V c main_arg0) (V c main_v15) (V c main_v16)) (fun t _ => flushed0 V f hpay c t) cover0

/-! ## Region 1: each row of the aggregate, scaled by the row's entry of a column, shifted by a row vector, then normalised -/

/-- The printed index maps of region 1's windows at a grid point: a row-blocked window is at block row `t`, a window
    fetched once is at block (0, 0). -/
structure Idx1 (t : Fin cfg1.N) : Prop where
  w00 : win1_0.index t (0 : Fin 2) = t.val
  w01 : win1_0.index t (1 : Fin 2) = 0
  w10 : win1_1.index t (0 : Fin 2) = t.val
  w11 : win1_1.index t (1 : Fin 2) = 0
  w20 : win1_2.index t (0 : Fin 2) = 0
  w21 : win1_2.index t (1 : Fin 2) = 0
  w30 : win1_3.index t (0 : Fin 2) = 0
  w31 : win1_3.index t (1 : Fin 2) = 0
  w40 : win1_4.index t (0 : Fin 2) = 0
  w41 : win1_4.index t (1 : Fin 2) = 0
  w50 : win1_5.index t (0 : Fin 2) = t.val
  w51 : win1_5.index t (1 : Fin 2) = 0

instance (t : Fin grid1.N) : Decidable (Idx1 t) := by
  refine decidable_of_iff (win1_0.index t (0 : Fin 2) = t.val ∧ win1_0.index t (1 : Fin 2) = 0 ∧ win1_1.index t (0 : Fin 2) = t.val ∧ win1_1.index t (1 : Fin 2) = 0 ∧ win1_2.index t (0 : Fin 2) = 0 ∧ win1_2.index t (1 : Fin 2) = 0 ∧ win1_3.index t (0 : Fin 2) = 0 ∧ win1_3.index t (1 : Fin 2) = 0 ∧ win1_4.index t (0 : Fin 2) = 0 ∧ win1_4.index t (1 : Fin 2) = 0 ∧ win1_5.index t (0 : Fin 2) = t.val ∧ win1_5.index t (1 : Fin 2) = 0) ⟨fun h => ?_, fun h => ?_⟩
  · obtain ⟨h00, h01, h10, h11, h20, h21, h30, h31, h40, h41, h50, h51⟩ := h; exact ⟨h00, h01, h10, h11, h20, h21, h30, h31, h40, h41, h50, h51⟩
  · exact ⟨h.w00, h.w01, h.w10, h.w11, h.w20, h.w21, h.w30, h.w31, h.w40, h.w41, h.w50, h.w51⟩

theorem idx1 : ∀ t : Fin cfg1.N, Idx1 t := (by decide +kernel : ∀ t : Fin grid1.N, Idx1 t)

theorem blk1_0 (c : Dev nD) (t : Fin cfg1.N) (p : Fin 4000) (k : Fin 128) (r : Fin 100000) (hr : r.val = t.val * 4000 + p.val) :
    (iblk1 V c 0 t : Vec Ideal S4000x128 .f32) (ix2 p k) = (V c main_v28 : S100000x128.Idx → EReal) (ix2 r k) := by
  have e := idx1 t
  unfold iblk1
  rw [View.read_apply]
  show V c main_v28 _ = V c main_v28 _
  congr 1
  funext a
  apply Fin.ext
  match a with
  | ⟨0, _⟩ => show win1_0.index t 0 * 4000 + 1 * p.val = r.val; rw [e.w00, hr]; omega
  | ⟨1, _⟩ => show win1_0.index t 1 * 128 + 1 * k.val = k.val; rw [e.w01]; omega

theorem blk1_1 (c : Dev nD) (t : Fin cfg1.N) (p : Fin 4000) (r : Fin 100000) (hr : r.val = t.val * 4000 + p.val) :
    (iblk1 V c 1 t : Vec Ideal S4000x1 .f32) (ix2 p 0) = (V c main_v29 : S100000x1.Idx → EReal) (ix2 r 0) := by
  have e := idx1 t
  unfold iblk1
  rw [View.read_apply]
  show V c main_v29 _ = V c main_v29 _
  congr 1
  funext a
  apply Fin.ext
  match a with
  | ⟨0, _⟩ => show win1_1.index t 0 * 4000 + 1 * p.val = r.val; rw [e.w10, hr]; omega
  | ⟨1, _⟩ => show win1_1.index t 1 * 1 + 1 * 0 = 0; rw [e.w11]

theorem blk1_2 (c : Dev nD) (t : Fin cfg1.N) :
    (iblk1 V c 2 t : Vec Ideal S1x128 .f32) = (V c main_v30 : S1x128.Idx → EReal) := by
  have e := idx1 t
  funext x
  unfold iblk1
  rw [View.read_apply]
  show V c main_v30 _ = V c main_v30 _
  congr 1
  funext a
  apply Fin.ext
  match a with
  | ⟨0, _⟩ => show win1_2.index t 0 * 1 + 1 * (x 0).val = (x 0).val; rw [e.w20]; omega
  | ⟨1, _⟩ => show win1_2.index t 1 * 128 + 1 * (x 1).val = (x 1).val; rw [e.w21]; omega

theorem blk1_3 (c : Dev nD) (t : Fin cfg1.N) :
    (iblk1 V c 3 t : Vec Ideal S1x128 .f32) = (V c main_v31 : S1x128.Idx → EReal) := by
  have e := idx1 t
  funext x
  unfold iblk1
  rw [View.read_apply]
  show V c main_v31 _ = V c main_v31 _
  congr 1
  funext a
  apply Fin.ext
  match a with
  | ⟨0, _⟩ => show win1_3.index t 0 * 1 + 1 * (x 0).val = (x 0).val; rw [e.w30]; omega
  | ⟨1, _⟩ => show win1_3.index t 1 * 128 + 1 * (x 1).val = (x 1).val; rw [e.w31]; omega

theorem blk1_4 (c : Dev nD) (t : Fin cfg1.N) :
    (iblk1 V c 4 t : Vec Ideal S1x128 .f32) = (V c main_v32 : S1x128.Idx → EReal) := by
  have e := idx1 t
  funext x
  unfold iblk1
  rw [View.read_apply]
  show V c main_v32 _ = V c main_v32 _
  congr 1
  funext a
  apply Fin.ext
  match a with
  | ⟨0, _⟩ => show win1_4.index t 0 * 1 + 1 * (x 0).val = (x 0).val; rw [e.w40]; omega
  | ⟨1, _⟩ => show win1_4.index t 1 * 128 + 1 * (x 1).val = (x 1).val; rw [e.w41]; omega

/-- The array region 1 leaves: row by row, a function `f` of the row of the aggregate, the row's entry of the column, and
    the three row vectors. -/
def G1 (f : (Fin 128 → EReal) → EReal → (S1x128.Idx → EReal) → (S1x128.Idx → EReal) → (S1x128.Idx → EReal) → Fin 128 → EReal)
    (a0 : S100000x128.Idx → EReal) (a1 : S100000x1.Idx → EReal) (a2 a3 a4 : S1x128.Idx → EReal) : S100000x128.Idx → EReal :=
  fun i => f (fun k => a0 (ix2 ⟨(i 0).val, (i 0).isLt⟩ k)) (a1 (ix2 ⟨(i 0).val, (i 0).isLt⟩ 0)) a2 a3 a4 ⟨(i 1).val, (i 1).isLt⟩

theorem flushed1 (f : (Fin 128 → EReal) → EReal → (S1x128.Idx → EReal) → (S1x128.Idx → EReal) → (S1x128.Idx → EReal) → Fin 128 → EReal)
    (hpay : ∀ (v0 : Vec Ideal S4000x1 .f32) (v4 : Vec Ideal S1x128 .f32) (v8 : Vec Ideal S4000x128 .f32) (v23 v27 : Vec Ideal S1x128 .f32) (p : Fin 4000) (q : Fin 128),
      k1_pay1 (F := Ideal) v0 v4 v8 v23 v27 (ix2 p q) = f (fun k => v8 (ix2 p k)) (v0 (ix2 p 0)) v4 v23 v27 q)
    (c : Dev nD) (t : Fin cfg1.N) :
    (dat1 (F := Ideal) V c).flushed 5 t = ((cfg1.win 5).blk t).view.read (Elt Ideal) (G1 f (V c main_v28) (V c main_v29) (V c main_v30) (V c main_v31) (V c main_v32)) := by
  show (cfg1.win 5).cut (grid1.coords t) ((dat1 V c).after 5 t) = _
  rw [after1_5]
  unfold out1_5
  rw [View.canon_unit_zero hz]
  simp only [View.ld_unit_zero (S := S4000x128) hz, View.ld_unit_zero (S := S128x128) hz, View.ld_unit_zero (S := S4000x1) hz, View.ld_unit_zero (S := S1x128) hz]
  have e := idx1 t
  funext j
  obtain ⟨p, q, rfl⟩ : ∃ (p : Fin 4000) (q : Fin 128), j = ix2 p q := ⟨j 0, j 1, eq_ix2 j⟩
  have hN : cfg1.N = 25 := N_1
  have hb : t.val * 4000 + p.val < 100000 := by have := t.isLt; have := p.isLt; omega
  rw [View.read_apply]
  have hemb : ((View.whole main_v33).slice ((win1 5).rect t)).emb (ix2 p q) = (ix2 (⟨t.val * 4000 + p.val, hb⟩ : Fin 100000) q : S100000x128.Idx) := by
    funext a
    apply Fin.ext
    match a with
    | ⟨0, _⟩ => show win1_5.index t 0 * 4000 + 1 * p.val = t.val * 4000 + p.val; rw [e.w50]; omega
    | ⟨1, _⟩ => show win1_5.index t 1 * 128 + 1 * q.val = q.val; rw [e.w51]; omega
  rw [hemb]
  show k1_pay1 (iblk1 V c 1 t) (iblk1 V c 2 t) (iblk1 V c 0 t) (iblk1 V c 3 t) (iblk1 V c 4 t) (ix2 p q) = _
  rw [hpay, blk1_2 V c t, blk1_3 V c t, blk1_4 V c t, blk1_1 V c t p ⟨t.val * 4000 + p.val, hb⟩ rfl,
    show (fun k => (iblk1 V c 0 t : Vec Ideal S4000x128 .f32) (ix2 p k)) = fun k => (V c main_v28 : S100000x128.Idx → EReal) (ix2 (⟨t.val * 4000 + p.val, hb⟩ : Fin 100000) k)
      from funext fun k => blk1_0 V c t p k ⟨t.val * 4000 + p.val, hb⟩ rfl]
  rfl

theorem mem_blk1 (t : Fin cfg1.N) (i : S100000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v33).slice (win1_5.rect t)).set ↔ _
  rw [View.set_slice_whole, Rect.mem_set_unit]
  exact Iff.rfl

/-- Every row of the result lies in the block of the point `row / 4000`. -/
theorem cover1 (i : S100000x128.Idx) : ∃ t : Fin cfg1.N, (cfg1.win 5).flush t = true ∧ i ∈ ((cfg1.win 5).blk t).view.set := by
  have hN : cfg1.N = 25 := N_1
  have hi0 : (i 0).val < 100000 := (i 0).isLt
  have hi1 : (i 1).val < 128 := (i 1).isLt
  refine ⟨⟨(i 0).val / 4000, by omega⟩, flush1_5 _, ?_⟩
  have e := idx1 ⟨(i 0).val / 4000, by omega⟩
  rw [mem_blk1]
  intro a
  match a with
  | ⟨0, _⟩ => show win1_5.index _ 0 * 4000 ≤ (i 0).val ∧ (i 0).val < win1_5.index _ 0 * 4000 + 4000; rw [e.w50]; show (i 0).val / 4000 * 4000 ≤ (i 0).val ∧ (i 0).val < (i 0).val / 4000 * 4000 + 4000; omega
  | ⟨1, _⟩ => show win1_5.index _ 1 * 128 ≤ (i 1).val ∧ (i 1).val < win1_5.index _ 1 * 128 + 128; rw [e.w51]; omega

/-- After region 1 its result array holds `G1` of the arrays the region found. -/
theorem final1 (f : (Fin 128 → EReal) → EReal → (S1x128.Idx → EReal) → (S1x128.Idx → EReal) → (S1x128.Idx → EReal) → Fin 128 → EReal)
    (hpay : ∀ (v0 : Vec Ideal S4000x1 .f32) (v4 : Vec Ideal S1x128 .f32) (v8 : Vec Ideal S4000x128 .f32) (v23 v27 : Vec Ideal S1x128 .f32) (p : Fin 4000) (q : Fin 128),
      k1_pay1 (F := Ideal) v0 v4 v8 v23 v27 (ix2 p q) = f (fun k => v8 (ix2 p k)) (v0 (ix2 p 0)) v4 v23 v27 q)
    (c : Dev nD) :
    (dat1 (F := Ideal) V c).arrAt 5 cfg1.N = G1 f (V c main_v28) (V c main_v29) (V c main_v30) (V c main_v31) (V c main_v32) :=
  (dat1 (F := Ideal) V c).arrAt_eq_of_cover 5 (G1 f (V c main_v28) (V c main_v29) (V c main_v30) (V c main_v31) (V c main_v32)) (fun t _ => flushed1 V f hpay c t) cover1

/-! ## Region 2: each row of the second operand times the matrix, then normalised -/

/-- The printed index maps of region 2's windows at a grid point: a row-blocked window is at block row `t`, a window
    fetched once is at block (0, 0). -/
structure Idx2 (t : Fin cfg2.N) : Prop where
  w00 : win2_0.index t (0 : Fin 2) = t.val
  w01 : win2_0.index t (1 : Fin 2) = 0
  w10 : win2_1.index t (0 : Fin 2) = 0
  w11 : win2_1.index t (1 : Fin 2) = 0
  w20 : win2_2.index t (0 : Fin 2) = 0
  w21 : win2_2.index t (1 : Fin 2) = 0
  w30 : win2_3.index t (0 : Fin 2) = 0
  w31 : win2_3.index t (1 : Fin 2) = 0
  w40 : win2_4.index t (0 : Fin 2) = t.val
  w41 : win2_4.index t (1 : Fin 2) = 0

instance (t : Fin grid2.N) : Decidable (Idx2 t) := by
  refine decidable_of_iff (win2_0.index t (0 : Fin 2) = t.val ∧ win2_0.index t (1 : Fin 2) = 0 ∧ win2_1.index t (0 : Fin 2) = 0 ∧ win2_1.index t (1 : Fin 2) = 0 ∧ win2_2.index t (0 : Fin 2) = 0 ∧ win2_2.index t (1 : Fin 2) = 0 ∧ win2_3.index t (0 : Fin 2) = 0 ∧ win2_3.index t (1 : Fin 2) = 0 ∧ win2_4.index t (0 : Fin 2) = t.val ∧ win2_4.index t (1 : Fin 2) = 0) ⟨fun h => ?_, fun h => ?_⟩
  · obtain ⟨h00, h01, h10, h11, h20, h21, h30, h31, h40, h41⟩ := h; exact ⟨h00, h01, h10, h11, h20, h21, h30, h31, h40, h41⟩
  · exact ⟨h.w00, h.w01, h.w10, h.w11, h.w20, h.w21, h.w30, h.w31, h.w40, h.w41⟩

theorem idx2 : ∀ t : Fin cfg2.N, Idx2 t := (by decide +kernel : ∀ t : Fin grid2.N, Idx2 t)

theorem blk2_0 (c : Dev nD) (t : Fin cfg2.N) (p : Fin 4000) (k : Fin 128) (r : Fin 100000) (hr : r.val = t.val * 4000 + p.val) :
    (iblk2 V c 0 t : Vec Ideal S4000x128 .f32) (ix2 p k) = (V c main_arg1 : S100000x128.Idx → EReal) (ix2 r k) := by
  have e := idx2 t
  unfold iblk2
  rw [View.read_apply]
  show V c main_arg1 _ = V c main_arg1 _
  congr 1
  funext a
  apply Fin.ext
  match a with
  | ⟨0, _⟩ => show win2_0.index t 0 * 4000 + 1 * p.val = r.val; rw [e.w00, hr]; omega
  | ⟨1, _⟩ => show win2_0.index t 1 * 128 + 1 * k.val = k.val; rw [e.w01]; omega

theorem blk2_1 (c : Dev nD) (t : Fin cfg2.N) :
    (iblk2 V c 1 t : Vec Ideal S128x128 .bf16) = (V c main_v15 : S128x128.Idx → EReal) := by
  have e := idx2 t
  funext x
  unfold iblk2
  rw [View.read_apply]
  show V c main_v15 _ = V c main_v15 _
  congr 1
  funext a
  apply Fin.ext
  match a with
  | ⟨0, _⟩ => show win2_1.index t 0 * 128 + 1 * (x 0).val = (x 0).val; rw [e.w10]; omega
  | ⟨1, _⟩ => show win2_1.index t 1 * 128 + 1 * (x 1).val = (x 1).val; rw [e.w11]; omega

theorem blk2_2 (c : Dev nD) (t : Fin cfg2.N) :
    (iblk2 V c 2 t : Vec Ideal S1x128 .f32) = (V c main_v34 : S1x128.Idx → EReal) := by
  have e := idx2 t
  funext x
  unfold iblk2
  rw [View.read_apply]
  show V c main_v34 _ = V c main_v34 _
  congr 1
  funext a
  apply Fin.ext
  match a with
  | ⟨0, _⟩ => show win2_2.index t 0 * 1 + 1 * (x 0).val = (x 0).val; rw [e.w20]; omega
  | ⟨1, _⟩ => show win2_2.index t 1 * 128 + 1 * (x 1).val = (x 1).val; rw [e.w21]; omega

theorem blk2_3 (c : Dev nD) (t : Fin cfg2.N) :
    (iblk2 V c 3 t : Vec Ideal S1x128 .f32) = (V c main_v35 : S1x128.Idx → EReal) := by
  have e := idx2 t
  funext x
  unfold iblk2
  rw [View.read_apply]
  show V c main_v35 _ = V c main_v35 _
  congr 1
  funext a
  apply Fin.ext
  match a with
  | ⟨0, _⟩ => show win2_3.index t 0 * 1 + 1 * (x 0).val = (x 0).val; rw [e.w30]; omega
  | ⟨1, _⟩ => show win2_3.index t 1 * 128 + 1 * (x 1).val = (x 1).val; rw [e.w31]; omega

/-- The array region 2 leaves: row by row, a function `f` of the row of the second operand, the matrix, and the two row
    vectors. -/
def G2 (f : (Fin 128 → EReal) → (S128x128.Idx → EReal) → (S1x128.Idx → EReal) → (S1x128.Idx → EReal) → Fin 128 → EReal)
    (a0 : S100000x128.Idx → EReal) (a1 : S128x128.Idx → EReal) (a2 a3 : S1x128.Idx → EReal) : S100000x128.Idx → EReal :=
  fun i => f (fun k => a0 (ix2 ⟨(i 0).val, (i 0).isLt⟩ k)) a1 a2 a3 ⟨(i 1).val, (i 1).isLt⟩

theorem flushed2 (f : (Fin 128 → EReal) → (S128x128.Idx → EReal) → (S1x128.Idx → EReal) → (S1x128.Idx → EReal) → Fin 128 → EReal)
    (hpay : ∀ (v0 : Vec Ideal S4000x128 .f32) (v2 : Vec Ideal S128x128 .bf16) (v16 v20 : Vec Ideal S1x128 .f32) (p : Fin 4000) (q : Fin 128),
      k2_pay1 (F := Ideal) v0 v2 v16 v20 (ix2 p q) = f (fun k => v0 (ix2 p k)) v2 v16 v20 q)
    (c : Dev nD) (t : Fin cfg2.N) :
    (dat2 (F := Ideal) V c).flushed 4 t = ((cfg2.win 4).blk t).view.read (Elt Ideal) (G2 f (V c main_arg1) (V c main_v15) (V c main_v34) (V c main_v35)) := by
  show (cfg2.win 4).cut (grid2.coords t) ((dat2 V c).after 4 t) = _
  rw [after2_4]
  unfold out2_4
  rw [View.canon_unit_zero hz]
  simp only [View.ld_unit_zero (S := S4000x128) hz, View.ld_unit_zero (S := S128x128) hz, View.ld_unit_zero (S := S4000x1) hz, View.ld_unit_zero (S := S1x128) hz]
  have e := idx2 t
  funext j
  obtain ⟨p, q, rfl⟩ : ∃ (p : Fin 4000) (q : Fin 128), j = ix2 p q := ⟨j 0, j 1, eq_ix2 j⟩
  have hN : cfg2.N = 25 := N_2
  have hb : t.val * 4000 + p.val < 100000 := by have := t.isLt; have := p.isLt; omega
  rw [View.read_apply]
  have hemb : ((View.whole main_v36).slice ((win2 4).rect t)).emb (ix2 p q) = (ix2 (⟨t.val * 4000 + p.val, hb⟩ : Fin 100000) q : S100000x128.Idx) := by
    funext a
    apply Fin.ext
    match a with
    | ⟨0, _⟩ => show win2_4.index t 0 * 4000 + 1 * p.val = t.val * 4000 + p.val; rw [e.w40]; omega
    | ⟨1, _⟩ => show win2_4.index t 1 * 128 + 1 * q.val = q.val; rw [e.w41]; omega
  rw [hemb]
  show k2_pay1 (iblk2 V c 0 t) (iblk2 V c 1 t) (iblk2 V c 2 t) (iblk2 V c 3 t) (ix2 p q) = _
  rw [hpay, blk2_1 V c t, blk2_2 V c t, blk2_3 V c t,
    show (fun k => (iblk2 V c 0 t : Vec Ideal S4000x128 .f32) (ix2 p k)) = fun k => (V c main_arg1 : S100000x128.Idx → EReal) (ix2 (⟨t.val * 4000 + p.val, hb⟩ : Fin 100000) k)
      from funext fun k => blk2_0 V c t p k ⟨t.val * 4000 + p.val, hb⟩ rfl]
  rfl

theorem mem_blk2 (t : Fin cfg2.N) (i : S100000x128.Idx) :
    i ∈ ((cfg2.win 4).blk t).view.set ↔ ∀ a : Fin 2, win2_4.index t a * S4000x128.size a ≤ (i a).val ∧ (i a).val < win2_4.index t a * S4000x128.size a + S4000x128.size a := by
  show i ∈ ((View.whole main_v36).slice (win2_4.rect t)).set ↔ _
  rw [View.set_slice_whole, Rect.mem_set_unit]
  exact Iff.rfl

/-- Every row of the result lies in the block of the point `row / 4000`. -/
theorem cover2 (i : S100000x128.Idx) : ∃ t : Fin cfg2.N, (cfg2.win 4).flush t = true ∧ i ∈ ((cfg2.win 4).blk t).view.set := by
  have hN : cfg2.N = 25 := N_2
  have hi0 : (i 0).val < 100000 := (i 0).isLt
  have hi1 : (i 1).val < 128 := (i 1).isLt
  refine ⟨⟨(i 0).val / 4000, by omega⟩, flush2_4 _, ?_⟩
  have e := idx2 ⟨(i 0).val / 4000, by omega⟩
  rw [mem_blk2]
  intro a
  match a with
  | ⟨0, _⟩ => show win2_4.index _ 0 * 4000 ≤ (i 0).val ∧ (i 0).val < win2_4.index _ 0 * 4000 + 4000; rw [e.w40]; show (i 0).val / 4000 * 4000 ≤ (i 0).val ∧ (i 0).val < (i 0).val / 4000 * 4000 + 4000; omega
  | ⟨1, _⟩ => show win2_4.index _ 1 * 128 ≤ (i 1).val ∧ (i 1).val < win2_4.index _ 1 * 128 + 128; rw [e.w41]; omega

/-- After region 2 its result array holds `G2` of the arrays the region found. -/
theorem final2 (f : (Fin 128 → EReal) → (S128x128.Idx → EReal) → (S1x128.Idx → EReal) → (S1x128.Idx → EReal) → Fin 128 → EReal)
    (hpay : ∀ (v0 : Vec Ideal S4000x128 .f32) (v2 : Vec Ideal S128x128 .bf16) (v16 v20 : Vec Ideal S1x128 .f32) (p : Fin 4000) (q : Fin 128),
      k2_pay1 (F := Ideal) v0 v2 v16 v20 (ix2 p q) = f (fun k => v0 (ix2 p k)) v2 v16 v20 q)
    (c : Dev nD) :
    (dat2 (F := Ideal) V c).arrAt 4 cfg2.N = G2 f (V c main_arg1) (V c main_v15) (V c main_v34) (V c main_v35) :=
  (dat2 (F := Ideal) V c).arrAt_eq_of_cover 4 (G2 f (V c main_arg1) (V c main_v15) (V c main_v34) (V c main_v35)) (fun t _ => flushed2 V f hpay c t) cover2

end Cert.KernelIdeal.KArr

end
-- ==== Proof.KBlock.lean ====
/-
  The three kernel bodies' arithmetic, read at one element of a 4000 × 128 block.

  * The first body stores a block of rows times the 128 × 128 matrix, each row scaled by its entry of a 4000 × 1 column.
  * The second stores the layer normalisation of each row of (block · column + row vector).
  * The third stores the layer normalisation of each row of the same matrix product.

  Both normalisations are one sequence of vector operations, `lnBlock`; read at (p, q) it is the specification's
  `lnRow` of row p at position q.  The small lemmas first read each operation that is not pointwise (a lane sum, a
  vector turned into a column, a column or a row spread over the block, the matrix product) at an index given by
  coordinates.
-/
import proofs.«147667_j32315333935196_2_alg».proof.Proof.Gen.KernelIdeal.Skeleton
import proofs.«147667_j32315333935196_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KBlock

open Idealize.ShloMosaic Idealize.ShloMosaic.ValueIdx Cert.KernelIdeal Cert.KernelIdeal.Gen

/-! ## Layout operations at coordinates -/

section Layout
variable {α : Type}

/-- A vector of 4000 entries turned into a 4000 × 1 column reads, at (p, 0), entry p. -/
theorem colOfVec_apply (v : S4000.Idx → α) (h : S4000.ShapeCasts S4000x1) (p : Fin 4000) (c : Fin 1) :
    shapeCast S4000x1 v h (ix2 p c) = v (ix1 p) := by
  refine shapeCast_apply v h (ix2 p c) (ix1 p) ?_
  rw [Shape.rowMajor_val_one, Shape.rowMajor_val_two]
  show p.val = p.val * 1 + c.val
  have := c.isLt
  omega

/-- A 4000 × 1 column spread over 128 lanes reads, at (p, q), the column's entry p. -/
theorem spreadCol_apply (v : S4000x1.Idx → α) (h : S4000x1.Broadcasts S4000x128) (p : Fin 4000) (q : Fin 128) :
    broadcastTo S4000x128 v h (ix2 p q) = v (ix2 p (0 : Fin 1)) := by
  refine broadcastTo_apply v h (ix2 p q) (ix2 p (0 : Fin 1)) fun a => ?_
  match a with
  | ⟨0, _⟩ => rfl
  | ⟨1, _⟩ => rfl

/-- A 1 × 128 row spread over 4000 rows reads, at (p, q), the row's entry q. -/
theorem spreadRow_apply (v : S1x128.Idx → α) (h : S1x128.Broadcasts S4000x128) (p : Fin 4000) (q : Fin 128) :
    broadcastTo S4000x128 v h (ix2 p q) = v (ix2 (0 : Fin 1) q) :=
  broadcastTo_1b_ab_apply v h p q

end Layout

/-! ## A lane sum and the matrix product at coordinates -/

/-- The sum over the 128 lanes of a block, at row p. -/
theorem laneSum_apply (v : FVec Ideal S4000x128 .f32) (hφ : FKind.Formats .f32)
    (hacc : (0x00000000#32 : BitVec 32) = 0x00000000#32) (p : Fin 4000) :
    multiReduction (F := Ideal) .add [1] S4000 v 0x00000000#32 reduces_S4000x128_S4000 hφ hacc (ix1 p)
      = ∑ k : Fin 128, v (ix2 p k) := by
  refine (Ideal.multiReduction_add_single v 0x00000000#32 reduces_S4000x128_S4000 hφ hacc (ix1 p)).trans ?_
  refine Finset.sum_congr rfl fun k _ => congrArg v ?_
  funext c
  apply Fin.ext
  match c with
  | ⟨0, _⟩ => rfl
  | ⟨1, _⟩ => rfl

/-! ## The matrix product at coordinates -/

/-- The product's left operand index keeps the output's row … -/
theorem lhsIdx_row (i : S4000x128.Idx) (c : dot_S4000x128_S128x128_S4000x128_1_0_0_1_n_n.contr.Idx) :
    (dot_S4000x128_S128x128_S4000x128_1_0_0_1_n_n.lhsIdx i c 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- … and takes the contraction's coordinate as its lane. -/
theorem lhsIdx_lane (i : S4000x128.Idx) (c : dot_S4000x128_S128x128_S4000x128_1_0_0_1_n_n.contr.Idx) :
    (dot_S4000x128_S128x128_S4000x128_1_0_0_1_n_n.lhsIdx i c 1).val = (c ⟨0, by decide⟩).val :=
  dot_S4000x128_S128x128_S4000x128_1_0_0_1_n_n.lhsIdx_val_of_single rfl i c
/-- The right operand index takes the contraction's coordinate as its row … -/
theorem rhsIdx_row (i : S4000x128.Idx) (c : dot_S4000x128_S128x128_S4000x128_1_0_0_1_n_n.contr.Idx) :
    (dot_S4000x128_S128x128_S4000x128_1_0_0_1_n_n.rhsIdx i c 0).val = (c ⟨0, by decide⟩).val :=
  dot_S4000x128_S128x128_S4000x128_1_0_0_1_n_n.rhsIdx_val_of_single rfl i c
/-- … and keeps the output's lane. -/
theorem rhsIdx_lane (i : S4000x128.Idx) (c : dot_S4000x128_S128x128_S4000x128_1_0_0_1_n_n.contr.Idx) :
    (dot_S4000x128_S128x128_S4000x128_1_0_0_1_n_n.rhsIdx i c 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A block times the matrix, accumulated from zero: entry (p, q) is the sum over the shared axis. -/
theorem blockProd_apply (x : FVec Ideal S4000x128 .bf16) (w : FVec Ideal S128x128 .bf16) (p : Fin 4000) (q : Fin 128) :
    matmul (F := Ideal) dot_S4000x128_S128x128_S4000x128_1_0_0_1_n_n none x w (constant (F := Ideal) S4000x128 .f32 0x00000000#32) (ix2 p q)
      = ∑ k : Fin 128, x (ix2 p k) * w (ix2 k q) := by
  refine (Ideal.matmul_constant_zero_apply dot_S4000x128_S128x128_S4000x128_1_0_0_1_n_n none x w (ix2 p q)).trans ?_
  rw [← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lhsIdx_row _ _
    | ⟨1, _⟩ => exact (lhsIdx_lane _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (rhsIdx_row _ _).trans hk
    | ⟨1, _⟩ => exact rhsIdx_lane _ _)
  rw [el, er]

/-- Two shape casts to the same shape change nothing. -/
theorem cast2_self {s : Shape} {α : Type} (v : s.Idx → α) (h : s.ShapeCasts s) : shapeCast s (shapeCast s v h) h = v :=
  (shapeCast_self _ h).trans (shapeCast_self v h)

/-- The product as the bodies write it (the block narrowed to bf16, which changes nothing here; the matrix cast to its
    own shape): entry (p, q) is the sum over the shared axis. -/
theorem prod_apply (v0 : Vec Ideal S4000x128 .f32) (v2 : Vec Ideal S128x128 .bf16) (p : Fin 4000) (q : Fin 128) :
    matmul (F := Ideal) (φ₂ := .bf16) dot_S4000x128_S128x128_S4000x128_1_0_0_1_n_n none (truncf .bf16 v0 bitsLt_bf16_f32)
        (shapeCast S128x128 v2 shapeCasts_S128x128_S128x128) (constant (F := Ideal) S4000x128 .f32 0x00000000#32) (ix2 p q)
      = ∑ k : Fin 128, v0 (ix2 p k) * v2 (ix2 k q) := by
  have e : shapeCast S128x128 v2 shapeCasts_S128x128_S128x128 = v2 := shapeCast_self v2 _
  rw [e]
  exact blockProd_apply (truncf .bf16 v0 bitsLt_bf16_f32) v2 p q

/-! ## Layer normalisation of a block's rows -/

/-- The mean of each row of a block, as a 4000 × 1 column: the lane sum divided by the float 128. -/
def rowMean (z : FVec Ideal S4000x128 .f32) : FVec Ideal S4000x1 .f32 :=
  divf (shapeCast S4000x1 (multiReduction .add [1] S4000 z 0x00000000#32 reduces_S4000x128_S4000 (.inl rfl) rfl) shapeCasts_S4000_S4000x1)
    (broadcast S4000x1 (Scalar.ofBits .f32 0x43000000#32))

/-- A block minus its rows' means. -/
def centred (z : FVec Ideal S4000x128 .f32) : FVec Ideal S4000x128 .f32 :=
  subf z (broadcastTo S4000x128 (rowMean z) broadcasts_S4000x1_S4000x128)

/-- Layer normalisation of every row of the block `z`, with the 1 × 128 scale `g` and shift `b`: the sequence of vector
    operations both normalising bodies end with. -/
def lnBlock (z : FVec Ideal S4000x128 .f32) (g b : Vec Ideal S1x128 .f32) : FVec Ideal S4000x128 .f32 :=
  addf
    (mulf
      (mulf (centred z)
        (broadcastTo S4000x128
          (rsqrt (addf (rowMean (mulf (centred z) (centred z))) (broadcast S4000x1 (Scalar.ofBits .f32 0x3727C5AC#32))))
          broadcasts_S4000x1_S4000x128))
      (broadcastTo S4000x128 (shapeCast S1x128 (shapeCast S1x128 g shapeCasts_S1x128_S1x128) shapeCasts_S1x128_S1x128)
        broadcasts_S1x128_S4000x128))
    (broadcastTo S4000x128 (shapeCast S1x128 (shapeCast S1x128 b shapeCasts_S1x128_S1x128) shapeCasts_S1x128_S1x128)
      broadcasts_S1x128_S4000x128)

/-- The column of row means at row p is the specification's mean of row p. -/
theorem rowMean_apply (z : FVec Ideal S4000x128 .f32) (p : Fin 4000) (c : Fin 1) :
    rowMean z (ix2 p c) = Spec.mean (fun k => z (ix2 p k)) := by
  unfold rowMean Spec.mean Spec.c128
  refine (divf_apply _ _ _).trans ?_
  refine congrArg₂ Ideal.div ?_ rfl
  refine (colOfVec_apply _ _ p c).trans ?_
  exact laneSum_apply z _ _ p

/-- The centred block at (p, q). -/
theorem centred_apply (z : FVec Ideal S4000x128 .f32) (p : Fin 4000) (q : Fin 128) :
    centred z (ix2 p q) = z (ix2 p q) - Spec.mean (fun k => z (ix2 p k)) := by
  unfold centred
  refine (subf_apply _ _ _).trans ?_
  exact congrArg (z (ix2 p q) - ·) ((spreadCol_apply _ _ p q).trans (rowMean_apply z p 0))

/-- The reciprocal standard deviation of row p, spread over the lanes. -/
theorem rstd_apply (z : FVec Ideal S4000x128 .f32) (p : Fin 4000) (q : Fin 128) :
    broadcastTo S4000x128
        (rsqrt (addf (rowMean (mulf (centred z) (centred z))) (broadcast S4000x1 (Scalar.ofBits .f32 0x3727C5AC#32))))
        broadcasts_S4000x1_S4000x128 (ix2 p q)
      = Ideal.rsqrt (Spec.mean (fun k => (z (ix2 p k) - Spec.mean (fun k => z (ix2 p k)))
          * (z (ix2 p k) - Spec.mean (fun k => z (ix2 p k)))) + Spec.eps) := by
  refine (spreadCol_apply _ _ p q).trans ?_
  show Ideal.rsqrt (rowMean (mulf (centred z) (centred z)) (ix2 p (0 : Fin 1)) + Spec.eps) = _
  refine congrArg (fun t => Ideal.rsqrt (t + Spec.eps)) ?_
  refine (rowMean_apply _ p 0).trans ?_
  refine congrArg Spec.mean (funext fun k => ?_)
  refine (mulf_apply _ _ _).trans ?_
  exact congrArg₂ (· * ·) (centred_apply z p k) (centred_apply z p k)

/-- A 1 × 128 row, cast twice to its own shape and spread over the rows, at (p, q). -/
theorem rowParam_apply (g : Vec Ideal S1x128 .f32) (p : Fin 4000) (q : Fin 128) :
    broadcastTo S4000x128 (shapeCast S1x128 (shapeCast S1x128 g shapeCasts_S1x128_S1x128) shapeCasts_S1x128_S1x128)
        broadcasts_S1x128_S4000x128 (ix2 p q) = g (ix2 (0 : Fin 1) q) :=
  (spreadRow_apply _ _ p q).trans (congrFun (cast2_self g _) _)

/-- Read at (p, q), the block normalisation is the specification's normalisation of row p at position q. -/
theorem lnBlock_apply (z : FVec Ideal S4000x128 .f32) (g b : Vec Ideal S1x128 .f32) (p : Fin 4000) (q : Fin 128) :
    lnBlock z g b (ix2 p q)
      = Spec.lnRow (fun k => z (ix2 p k)) (fun k => g (ix2 (0 : Fin 1) k)) (fun k => b (ix2 (0 : Fin 1) k)) q := by
  unfold lnBlock
  refine (addf_apply _ _ _).trans ?_
  refine congrArg₂ (· + ·) ?_ (rowParam_apply b p q)
  refine (mulf_apply _ _ _).trans ?_
  refine congrArg₂ (· * ·) ?_ (rowParam_apply g p q)
  refine (mulf_apply _ _ _).trans ?_
  exact congrArg₂ (· * ·) (centred_apply z p q) (rstd_apply z p q)

/-! ## The three bodies' stored values -/

/-- The first body: the product, each row scaled by its entry of the column. -/
theorem pay0_apply (v0 : Vec Ideal S4000x128 .f32) (v2 : Vec Ideal S128x128 .bf16) (v5 : Vec Ideal S4000x1 .f32)
    (p : Fin 4000) (q : Fin 128) :
    k0_pay1 (F := Ideal) v0 v2 v5 (ix2 p q) = (∑ k : Fin 128, v0 (ix2 p k) * v2 (ix2 k q)) * v5 (ix2 p (0 : Fin 1)) := by
  have e : k0_pay1 (F := Ideal) v0 v2 v5 (ix2 p q)
      = matmul (F := Ideal) (φ₂ := .bf16) dot_S4000x128_S128x128_S4000x128_1_0_0_1_n_n none (truncf .bf16 v0 bitsLt_bf16_f32)
          (shapeCast S128x128 v2 shapeCasts_S128x128_S128x128) (constant (F := Ideal) S4000x128 .f32 0x00000000#32) (ix2 p q)
        * broadcastTo S4000x128 (shapeCast S4000x1 (shapeCast S4000x1 v5 shapeCasts_S4000x1_S4000x1) shapeCasts_S4000x1_S4000x1)
            broadcasts_S4000x1_S4000x128 (ix2 p q) := rfl
  refine e.trans ?_
  refine congrArg₂ (· * ·) (prod_apply v0 v2 p q) ?_
  exact (spreadCol_apply _ _ p q).trans (congrFun (cast2_self v5 _) _)

/-- The third body is the block normalisation of the product. -/
theorem k2_eq_lnBlock (v0 : Vec Ideal S4000x128 .f32) (v2 : Vec Ideal S128x128 .bf16) (v16 v20 : Vec Ideal S1x128 .f32) :
    k2_pay1 (F := Ideal) v0 v2 v16 v20
      = lnBlock (matmul (F := Ideal) (φ₂ := .bf16) dot_S4000x128_S128x128_S4000x128_1_0_0_1_n_n none (truncf .bf16 v0 bitsLt_bf16_f32)
          (shapeCast S128x128 v2 shapeCasts_S128x128_S128x128) (constant (F := Ideal) S4000x128 .f32 0x00000000#32)) v16 v20 := rfl

/-- The third body: layer normalisation of each row of the product, with scale `v16` and shift `v20`. -/
theorem pay2_apply (v0 : Vec Ideal S4000x128 .f32) (v2 : Vec Ideal S128x128 .bf16) (v16 v20 : Vec Ideal S1x128 .f32)
    (p : Fin 4000) (q : Fin 128) :
    k2_pay1 (F := Ideal) v0 v2 v16 v20 (ix2 p q)
      = Spec.lnRow (fun k => ∑ j : Fin 128, v0 (ix2 p j) * v2 (ix2 j k)) (fun k => v16 (ix2 (0 : Fin 1) k))
          (fun k => v20 (ix2 (0 : Fin 1) k)) q := by
  refine (congrFun (k2_eq_lnBlock v0 v2 v16 v20) (ix2 p q)).trans ?_
  refine (lnBlock_apply _ v16 v20 p q).trans ?_
  exact congrArg (fun z => Spec.lnRow z (fun k => v16 (ix2 (0 : Fin 1) k)) (fun k => v20 (ix2 (0 : Fin 1) k)) q)
    (funext fun k => prod_apply v0 v2 p k)

/-- The second body is the block normalisation of (block · column + row). -/
theorem k1_eq_lnBlock (v0 : Vec Ideal S4000x1 .f32) (v4 : Vec Ideal S1x128 .f32) (v8 : Vec Ideal S4000x128 .f32)
    (v23 v27 : Vec Ideal S1x128 .f32) :
    k1_pay1 (F := Ideal) v0 v4 v8 v23 v27
      = lnBlock
          (addf
            (mulf (shapeCast S4000x128 v8 shapeCasts_S4000x128_S4000x128)
              (broadcastTo S4000x128 (shapeCast S4000x1 (shapeCast S4000x1 v0 shapeCasts_S4000x1_S4000x1) shapeCasts_S4000x1_S4000x1)
                broadcasts_S4000x1_S4000x128))
            (broadcastTo S4000x128 (shapeCast S1x128 (shapeCast S1x128 v4 shapeCasts_S1x128_S1x128) shapeCasts_S1x128_S1x128)
              broadcasts_S1x128_S4000x128))
          v23 v27 := rfl

/-- The second body's block before normalisation, at (p, k). -/
theorem scaledShifted_apply (v0 : Vec Ideal S4000x1 .f32) (v4 : Vec Ideal S1x128 .f32) (v8 : Vec Ideal S4000x128 .f32)
    (p : Fin 4000) (k : Fin 128) :
    (addf
        (mulf (shapeCast S4000x128 v8 shapeCasts_S4000x128_S4000x128)
          (broadcastTo S4000x128 (shapeCast S4000x1 (shapeCast S4000x1 v0 shapeCasts_S4000x1_S4000x1) shapeCasts_S4000x1_S4000x1)
            broadcasts_S4000x1_S4000x128))
        (broadcastTo S4000x128 (shapeCast S1x128 (shapeCast S1x128 v4 shapeCasts_S1x128_S1x128) shapeCasts_S1x128_S1x128)
          broadcasts_S1x128_S4000x128) : FVec Ideal S4000x128 .f32) (ix2 p k)
      = v8 (ix2 p k) * v0 (ix2 p (0 : Fin 1)) + v4 (ix2 (0 : Fin 1) k) := by
  refine (addf_apply _ _ _).trans ?_
  refine congrArg₂ (· + ·) ?_ (rowParam_apply v4 p k)
  refine (mulf_apply _ _ _).trans ?_
  refine congrArg₂ (· * ·) (congrFun (shapeCast_self v8 _) _) ?_
  exact (spreadCol_apply _ _ p k).trans (congrFun (cast2_self v0 _) _)

/-- The second body: layer normalisation of each row of (block · column + row), with scale `v23` and shift `v27`. -/
theorem pay1_apply (v0 : Vec Ideal S4000x1 .f32) (v4 : Vec Ideal S1x128 .f32) (v8 : Vec Ideal S4000x128 .f32)
    (v23 v27 : Vec Ideal S1x128 .f32) (p : Fin 4000) (q : Fin 128) :
    k1_pay1 (F := Ideal) v0 v4 v8 v23 v27 (ix2 p q)
      = Spec.lnRow (fun k => v8 (ix2 p k) * v0 (ix2 p (0 : Fin 1)) + v4 (ix2 (0 : Fin 1) k)) (fun k => v23 (ix2 (0 : Fin 1) k))
          (fun k => v27 (ix2 (0 : Fin 1) k)) q := by
  refine (congrFun (k1_eq_lnBlock v0 v4 v8 v23 v27) (ix2 p q)).trans ?_
  refine (lnBlock_apply _ v23 v27 p q).trans ?_
  exact congrArg (fun z => Spec.lnRow z (fun k => v23 (ix2 (0 : Fin 1) k)) (fun k => v27 (ix2 (0 : Fin 1) k)) q)
    (funext fun k => scaledShifted_apply v0 v4 v8 p k)

end Cert.KBlock

end
-- ==== Proof.KVal.lean ====
/-
  The two results of the idealized kernel program, index by index, as functions of the launch contents of its
  arguments.

  The second result is the third region's array: every row of the second operand times the matrix, normalised.
  The first result is the second region's array: every row of the aggregate, scaled by the node's guarded reciprocal
  square root of its degree, shifted by the bias, normalised; the aggregate is the host's sum, over the edges that
  land on the node, of the gathered rows of the first region's array, which holds every row of the first operand times
  the matrix scaled by its node's factor.
-/
import proofs.«147667_j32315333935196_2_alg».proof.Proof.KHost
import proofs.«147667_j32315333935196_2_alg».proof.Proof.KArr
import proofs.«147667_j32315333935196_2_alg».proof.Proof.KBlock
import proofs.«147667_j32315333935196_2_alg».proof.Proof.Spec
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen Cert.KernelIdeal.KHost

/-- A row times the matrix, scaled by one factor. -/
def f0 (row : Fin 128 → EReal) (w : S128x128.Idx → EReal) (d : EReal) (q : Fin 128) : EReal :=
  (∑ k : Fin 128, row k * w (ix2 k q)) * d
/-- A row scaled by one factor, shifted by a row vector, normalised. -/
def f1 (row : Fin 128 → EReal) (d : EReal) (v4 v23 v27 : S1x128.Idx → EReal) (q : Fin 128) : EReal :=
  Spec.lnRow (fun k => row k * d + v4 (ix2 (0 : Fin 1) k)) (fun k => v23 (ix2 (0 : Fin 1) k)) (fun k => v27 (ix2 (0 : Fin 1) k)) q
/-- A row times the matrix, normalised. -/
def f2 (row : Fin 128 → EReal) (w : S128x128.Idx → EReal) (g b : S1x128.Idx → EReal) (q : Fin 128) : EReal :=
  Spec.lnRow (fun k => ∑ j : Fin 128, row j * w (ix2 j k)) (fun k => g (ix2 (0 : Fin 1) k)) (fun k => b (ix2 (0 : Fin 1) k)) q

/-- Normalisation of equal rows with equal scales and shifts is equal. -/
theorem lnRow_congr {z z' g g' b b' : Fin 128 → EReal} (hz : z = z') (hg : g = g') (hb : b = b') (q : Fin 128) :
    Spec.lnRow z g b q = Spec.lnRow z' g' b' q := by subst hz hg hb; rfl

/-- A vector of 128 entries reshaped to one row: entry k of the row is entry k of the vector. -/
theorem sc_row (x : S128.Idx → EReal) (k : Fin 128) :
    (shapeCast S1x128 x shapeCasts_S128_S1x128 : S1x128.Idx → EReal) (ix2 (0 : Fin 1) k) = x (ix1 k) :=
  shapeCast_apply x shapeCasts_S128_S1x128 (ix2 (0 : Fin 1) k) (ix1 k)
    (by rewrite [Shape.rowMajor_val_two, Shape.rowMajor_val_one]; show k.val = 0 * 128 + k.val; omega)

/-- A vector of 100000 entries reshaped to one column: entry r of the column is entry r of the vector. -/
theorem sc_col (x : S100000.Idx → EReal) (r : Fin 100000) :
    (shapeCast S100000x1 x shapeCasts_S100000_S100000x1 : S100000x1.Idx → EReal) (ix2 r (0 : Fin 1)) = x (ix1 r) :=
  shapeCast_apply x shapeCasts_S100000_S100000x1 (ix2 r (0 : Fin 1)) (ix1 r)
    (by rewrite [Shape.rowMajor_val_two, Shape.rowMajor_val_one]; show r.val = r.val * 1 + 0; omega)

variable (m : (ℓ : Loc nD τ sig) → Buf (Elt Ideal) ℓ) (ρ : Dev nD → PrngReg) (c : Dev nD)

/-! ## The second result -/

theorem out2_val (r : Fin 100000) (q : Fin 128) :
    (W8 m ρ c (Proc.devRef .tc main_v36) : S100000x128.Idx → EReal) (ix2 r q)
      = Spec.lnRow (fun k => Spec.xw (W0 m ρ c (Proc.devRef .tc main_arg1) : S100000x128.Idx → EReal) (W0 m ρ c (Proc.devRef .tc main_arg2) : S128x128.Idx → EReal) r k) (fun k => (W0 m ρ c (Proc.devRef .tc main_arg6) : S128.Idx → EReal) (ix1 k)) (fun k => (W0 m ρ c (Proc.devRef .tc main_arg7) : S128.Idx → EReal) (ix1 k)) q := by
  have h : (W8 m ρ c (Proc.devRef .tc main_v36) : S100000x128.Idx → EReal)
      = KArr.G2 f2 (W7 m ρ c (Proc.devRef .tc main_arg1)) (W7 m ρ c (Proc.devRef .tc main_v15)) (W7 m ρ c (Proc.devRef .tc main_v34)) (W7 m ρ c (Proc.devRef .tc main_v35)) :=
    (W8_arr m ρ c 4).trans (KArr.final2 (V7 m ρ) f2 (fun v0 v2 v16 v20 p q => KBlock.pay2_apply v0 v2 v16 v20 p q) c)
  rw [h, w7_arg1, w6_arg1, w5_arg1, w4_arg1, w3_arg1, w2_arg1, w1_arg1,
    w7_v15, w6_v15, w5_v15, w4_v15, w3_v15, w2_arg2, w1_arg2,
    w7_v34, w6_arg6, w5_arg6, w4_arg6, w3_arg6, w2_arg6, w1_arg6,
    w7_v35, w6_arg7, w5_arg7, w4_arg7, w3_arg7, w2_arg7, w1_arg7]
  unfold KArr.G2 f2
  exact lnRow_congr (funext fun k => rfl) (funext fun k => sc_row (W0 m ρ c (Proc.devRef .tc main_arg6)) k) (funext fun k => sc_row (W0 m ρ c (Proc.devRef .tc main_arg7)) k) q

/-! ## The first result -/

/-- The first region's array: every row of the first operand times the matrix, scaled by its node's factor. -/
def yArr (a0 : S100000x128.Idx → EReal) (a2 : S128x128.Idx → EReal) (dinv : S100000.Idx → EReal) : S100000x128.Idx → EReal :=
  KArr.G0 f0 a0 (truncf (F := Ideal) .bf16 a2 bitsLt_bf16_f32) (shapeCast S100000x1 dinv shapeCasts_S100000_S100000x1)

theorem y_eq : (W4 m ρ c (Proc.devRef .tc main_v17) : S100000x128.Idx → EReal)
    = yArr (W0 m ρ c (Proc.devRef .tc main_arg0) : S100000x128.Idx → EReal) (W0 m ρ c (Proc.devRef .tc main_arg2) : S128x128.Idx → EReal) (Cert.ReferenceIdeal.ReadP.val_main_v14 (F := Ideal) (W0 m ρ c (Proc.devRef .tc main_arg8) : S2x1600000.Idx → BitVec 32)) := by
  have h : (W4 m ρ c (Proc.devRef .tc main_v17) : S100000x128.Idx → EReal)
      = KArr.G0 f0 (W3 m ρ c (Proc.devRef .tc main_arg0)) (W3 m ρ c (Proc.devRef .tc main_v15)) (W3 m ρ c (Proc.devRef .tc main_v16)) :=
    (W4_arr m ρ c 3).trans (KArr.final0 (V3 m ρ) f0 (fun v0 v2 v5 p q => KBlock.pay0_apply v0 v2 v5 p q) c)
  rw [h, w3_arg0, w2_arg0, w1_arg0, w3_v15, w2_arg2, w1_arg2, w3_v16, w2_v14]
  rfl

/-- The aggregate: the gathered rows of the first region's array added up at their targets. -/
def aggArr (a0 : S100000x128.Idx → EReal) (a2 : S128x128.Idx → EReal) (a8 : S2x1600000.Idx → BitVec 32) : S100000x128.Idx → EReal :=
  Host.scatterAdd (F := Ideal) Cert.ReferenceIdeal.scatter_S100000x128_S1700000x1_S1700000x128_1_0_0_1
    (Cert.ReferenceIdeal.ReadP.val_main_v41 (F := Ideal))
    (Cert.ReferenceIdeal.ReadP.val_main_v42 (F := Ideal) a8)
    (extf (F := Ideal) .f32 (Host.gather Cert.ReferenceIdeal.gather_S100000x128_S1700000x1_S1700000x128_1_0_n_n_0_1_1128
      (yArr a0 a2 (Cert.ReferenceIdeal.ReadP.val_main_v14 (F := Ideal) a8)) (Cert.ReferenceIdeal.ReadP.val_main_v36 (F := Ideal) a8)) bitsLt_bf16_f32)

theorem agg_eq : (W5 m ρ c (Proc.devRef .tc main_v28) : S100000x128.Idx → EReal) = aggArr (W0 m ρ c (Proc.devRef .tc main_arg0) : S100000x128.Idx → EReal) (W0 m ρ c (Proc.devRef .tc main_arg2) : S128x128.Idx → EReal) (W0 m ρ c (Proc.devRef .tc main_arg8) : S2x1600000.Idx → BitVec 32) := by
  rw [w5_v28, w4_v6, w3_v6, w2_v6, w1_v6, w4_v5, w3_v5, w2_v5, w1_v5, y_eq]
  rfl

theorem out1_val (r : Fin 100000) (q : Fin 128) :
    (W8 m ρ c (Proc.devRef .tc main_v33) : S100000x128.Idx → EReal) (ix2 r q)
      = Spec.lnRow (fun k => aggArr (W0 m ρ c (Proc.devRef .tc main_arg0) : S100000x128.Idx → EReal) (W0 m ρ c (Proc.devRef .tc main_arg2) : S128x128.Idx → EReal) (W0 m ρ c (Proc.devRef .tc main_arg8) : S2x1600000.Idx → BitVec 32) (ix2 r k) * Cert.ReferenceIdeal.ReadP.val_main_v14 (F := Ideal) (W0 m ρ c (Proc.devRef .tc main_arg8) : S2x1600000.Idx → BitVec 32) (ix1 r)
            + (W0 m ρ c (Proc.devRef .tc main_arg3) : S128.Idx → EReal) (ix1 k))
          (fun k => (W0 m ρ c (Proc.devRef .tc main_arg4) : S128.Idx → EReal) (ix1 k)) (fun k => (W0 m ρ c (Proc.devRef .tc main_arg5) : S128.Idx → EReal) (ix1 k)) q := by
  have h : (W6 m ρ c (Proc.devRef .tc main_v33) : S100000x128.Idx → EReal)
      = KArr.G1 f1 (W5 m ρ c (Proc.devRef .tc main_v28)) (W5 m ρ c (Proc.devRef .tc main_v29)) (W5 m ρ c (Proc.devRef .tc main_v30))
          (W5 m ρ c (Proc.devRef .tc main_v31)) (W5 m ρ c (Proc.devRef .tc main_v32)) :=
    (W6_arr m ρ c 5).trans (KArr.final1 (V5 m ρ) f1 (fun v0 v4 v8 v23 v27 p q => KBlock.pay1_apply v0 v4 v8 v23 v27 p q) c)
  rw [w8_v33, w7_v33, h, agg_eq, w5_v29, w4_v14, w3_v14, w2_v14,
    w5_v30, w4_arg3, w3_arg3, w2_arg3, w1_arg3, w5_v31, w4_arg4, w3_arg4, w2_arg4, w1_arg4, w5_v32, w4_arg5, w3_arg5, w2_arg5, w1_arg5]
  unfold KArr.G1 f1
  exact lnRow_congr
    (funext fun k => congr (congrArg HAdd.hAdd (congrArg (HMul.hMul _) (sc_col (Cert.ReferenceIdeal.ReadP.val_main_v14 (F := Ideal) (W0 m ρ c (Proc.devRef .tc main_arg8) : S2x1600000.Idx → BitVec 32)) r)))
      (sc_row (W0 m ρ c (Proc.devRef .tc main_arg3)) k))
    (funext fun k => sc_row (W0 m ρ c (Proc.devRef .tc main_arg4)) k)
    (funext fun k => sc_row (W0 m ρ c (Proc.devRef .tc main_arg5)) k) q

end Cert.KernelIdeal.KVal

end
-- ==== Proof.IdxSem.lean ====
import proofs.«147667_j32315333935196_2_alg».proof.ReferenceIdeal
import Idealize.ShloMosaic.Lib.ValueIdx

/-!
# Which element a gather reads, where a scatter's update lands

At this program's dimension numbers a gather of rows (or of elements of a flat array) at a column of
start indices reads the row whose number is the start index, read as a signed integer and clamped
into the table; the scatter adds update row `e` to the row whose number is the scatter index, read
as a signed integer and not clamped, keeping the column.
-/

open Idealize.ShloMosaic Idealize.ShloMosaic.ValueIdx Cert.ReferenceIdeal

namespace Cert.IdxSem

section Dims
variable [Facts₀]

/-! ## The gather of a flat array -/

/-- Result element `e` reads the one component of its start index at `(e, 0)`. -/
theorem gather_vec_siIdx (e : Fin 1700000)
    (c : Fin gather_S100000_S1700000x1_S1700000_n_0_n_n_0_1_1.startIndexMap.length) :
    gather_S100000_S1700000x1_S1700000_n_0_n_n_0_1_1.siIdx (ix1 e) c = ix2 e 0 := by
  have hc : c.val = 0 := Nat.lt_one_iff.mp c.isLt
  funext b; refine Fin.ext ?_
  match b with
  | ⟨0, _⟩ => rfl
  | ⟨1, _⟩ => exact hc

/-- The flat gather reads the element whose number is the start index `idx (e, 0)`, read signed and
    clamped into `[0, 99999]`. -/
theorem gather_vec (idx : IVec S1700000x1 32) (e : Fin 1700000) :
    gather_S100000_S1700000x1_S1700000_n_0_n_n_0_1_1.operandIdx (ix1 e) idx
      = ix1 ⟨min (idx (ix2 e 0)).toInt.toNat 99999, by omega⟩ := by
  funext a; refine Fin.ext ?_
  match a with
  | ⟨0, _⟩ =>
    show gather_S100000_S1700000x1_S1700000_n_0_n_n_0_1_1.start (ix1 e) idx 0
      + gather_S100000_S1700000x1_S1700000_n_0_n_n_0_1_1.batchCoord (ix1 e) 0
      + gather_S100000_S1700000x1_S1700000_n_0_n_n_0_1_1.offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ gather_S100000_S1700000x1_S1700000_n_0_n_n_0_1_1.startIndexMap from
      List.mem_singleton.mpr rfl), gather_vec_siIdx]
    rfl

/-! ## The gather of rows -/

/-- Result element `(e, q)` reads the one component of its start index at `(e, 0)`. -/
theorem gather_rows_siIdx (e : Fin 1700000) (q : Fin 128)
    (c : Fin gather_S100000x128_S1700000x1_S1700000x128_1_0_n_n_0_1_1128.startIndexMap.length) :
    gather_S100000x128_S1700000x1_S1700000x128_1_0_n_n_0_1_1128.siIdx (ix2 e q) c = ix2 e 0 := by
  have hc : c.val = 0 := Nat.lt_one_iff.mp c.isLt
  funext b; refine Fin.ext ?_
  match b with
  | ⟨0, _⟩ => rfl
  | ⟨1, _⟩ => exact hc

/-- The row gather reads, in the result's own column, the row whose number is the start index
    `idx (e, 0)`, read signed and clamped into `[0, 99999]`. -/
theorem gather_rows (idx : IVec S1700000x1 32) (e : Fin 1700000) (q : Fin 128) :
    gather_S100000x128_S1700000x1_S1700000x128_1_0_n_n_0_1_1128.operandIdx (ix2 e q) idx
      = ix2 ⟨min (idx (ix2 e 0)).toInt.toNat 99999, by omega⟩ q := by
  funext a; refine Fin.ext ?_
  match a with
  | ⟨0, _⟩ =>
    show gather_S100000x128_S1700000x1_S1700000x128_1_0_n_n_0_1_1128.start (ix2 e q) idx 0
      + gather_S100000x128_S1700000x1_S1700000x128_1_0_n_n_0_1_1128.batchCoord (ix2 e q) 0
      + gather_S100000x128_S1700000x1_S1700000x128_1_0_n_n_0_1_1128.offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x128_S1700000x1_S1700000x128_1_0_n_n_0_1_1128.startIndexMap from
      List.mem_singleton.mpr rfl), gather_rows_siIdx]
    rfl
  | ⟨1, _⟩ =>
    show gather_S100000x128_S1700000x1_S1700000x128_1_0_n_n_0_1_1128.start (ix2 e q) idx 1
      + gather_S100000x128_S1700000x1_S1700000x128_1_0_n_n_0_1_1128.batchCoord (ix2 e q) 1
      + gather_S100000x128_S1700000x1_S1700000x128_1_0_n_n_0_1_1128.offCoord (ix2 e q) 1 = _
    rw [GatherDims.batchCoord_eq_zero _ _ _ List.not_mem_nil]
    unfold GatherDims.start GatherDims.offCoord
    have hs : ¬ (1 : Fin 2) ∈ gather_S100000x128_S1700000x1_S1700000x128_1_0_n_n_0_1_1128.startIndexMap := by
      show ¬ (1 : Fin 2) ∈ ([0] : List (Fin 2)); decide
    have hk : (1 : Fin 2) ∈ gather_S100000x128_S1700000x1_S1700000x128_1_0_n_n_0_1_1128.sKept := by
      show (1 : Fin 2) ∈ ([1] : List (Fin 2)); decide
    rw [dif_neg hs, dif_pos hk]
    simp only [Nat.zero_add, Nat.add_zero]
    rfl

/-! ## The scatter of rows -/

/-- Update element `(e, q)` reads the one component of its scatter index at `(e, 0)`. -/
theorem scatter_siIdx (e : Fin 1700000) (q : Fin 128)
    (c : Fin scatter_S100000x128_S1700000x1_S1700000x128_1_0_0_1.scatterDimsToOperandDims.length) :
    scatter_S100000x128_S1700000x1_S1700000x128_1_0_0_1.siIdx (ix2 e q) c = ix2 e 0 := by
  have hc : c.val = 0 := Nat.lt_one_iff.mp c.isLt
  funext b; refine Fin.ext ?_
  match b with
  | ⟨0, _⟩ => rfl
  | ⟨1, _⟩ => exact hc

/-- On the row axis the window starts at the scatter index, read signed. -/
theorem scatter_start_row (idx : IVec S1700000x1 32) (e : Fin 1700000) (q : Fin 128) :
    scatter_S100000x128_S1700000x1_S1700000x128_1_0_0_1.start (ix2 e q) idx 0 = (idx (ix2 e 0)).toInt := by
  unfold ScatterDims.start
  rw [dif_pos (show (0 : Fin 2) ∈ scatter_S100000x128_S1700000x1_S1700000x128_1_0_0_1.scatterDimsToOperandDims from
    List.mem_singleton.mpr rfl), scatter_siIdx]

/-- On the column axis the window starts at `0`. -/
theorem scatter_start_col (idx : IVec S1700000x1 32) (e : Fin 1700000) (q : Fin 128) :
    scatter_S100000x128_S1700000x1_S1700000x128_1_0_0_1.start (ix2 e q) idx 1 = 0 := by
  unfold ScatterDims.start
  have hs : ¬ (1 : Fin 2) ∈ scatter_S100000x128_S1700000x1_S1700000x128_1_0_0_1.scatterDimsToOperandDims := by
    show ¬ (1 : Fin 2) ∈ ([0] : List (Fin 2)); decide
  rw [dif_neg hs]

/-- The row axis is an inserted one: its window coordinate is `0`. -/
theorem scatter_window_row (e : Fin 1700000) (q : Fin 128) :
    scatter_S100000x128_S1700000x1_S1700000x128_1_0_0_1.window (ix2 e q) 0 = 0 := by
  unfold ScatterDims.window
  have hk : ¬ (0 : Fin 2) ∈ scatter_S100000x128_S1700000x1_S1700000x128_1_0_0_1.sKept := by
    show ¬ (0 : Fin 2) ∈ ([1] : List (Fin 2)); decide
  rw [dif_neg hk]

/-- The column axis' window coordinate is the update's column. -/
theorem scatter_window_col (e : Fin 1700000) (q : Fin 128) :
    scatter_S100000x128_S1700000x1_S1700000x128_1_0_0_1.window (ix2 e q) 1 = q.val := by
  unfold ScatterDims.window
  have hk : (1 : Fin 2) ∈ scatter_S100000x128_S1700000x1_S1700000x128_1_0_0_1.sKept := by
    show (1 : Fin 2) ∈ ([1] : List (Fin 2)); decide
  rw [dif_pos hk]
  rfl

/-- An update row `e` lands on row `r` only when its scatter index, read signed and not clamped,
    is `r`; the column is kept. -/
theorem scatter_lands (idx : IVec S1700000x1 32) (e : Fin 1700000) (q : Fin 128) (r : Fin 100000) (q' : Fin 128)
    (h : scatter_S100000x128_S1700000x1_S1700000x128_1_0_0_1.resultIdx? (ix2 e q) idx = some (ix2 r q')) :
    (idx (ix2 e 0)).toInt = (r.val : Int) ∧ q = q' := by
  unfold ScatterDims.resultIdx? at h
  split at h
  · rename_i hall
    have h' := Option.some.inj h
    have h0 : (scatter_S100000x128_S1700000x1_S1700000x128_1_0_0_1.start (ix2 e q) idx 0
        + scatter_S100000x128_S1700000x1_S1700000x128_1_0_0_1.window (ix2 e q) 0).toNat = r.val :=
      congrArg Fin.val (congrFun h' (0 : Fin 2))
    have h1 : (scatter_S100000x128_S1700000x1_S1700000x128_1_0_0_1.start (ix2 e q) idx 1
        + scatter_S100000x128_S1700000x1_S1700000x128_1_0_0_1.window (ix2 e q) 1).toNat = q'.val :=
      congrArg Fin.val (congrFun h' (1 : Fin 2))
    have hp := (hall (0 : Fin 2)).1
    rw [scatter_start_row, scatter_window_row] at h0 hp
    rw [scatter_start_col, scatter_window_col] at h1
    refine ⟨by omega, Fin.ext (by omega)⟩
  · exact absurd h (by simp)

end Dims

/-! ## The negative-index wrap on an index that is in range -/

/-- A word whose signed value is a row number `r < 100000` is not negative, so the wrap
    (add `100000` when negative) leaves it alone, and the clamp into `[0, 99999]` does nothing. -/
theorem wrap_of_inrange (v : BitVec 32) (r : Fin 100000) (hv : v.toInt = (r.val : Int)) :
    min (Scalar.select (IntOp.cmpi .slt v 0#32) (IntOp.addi v 100000#32) v).toInt.toNat 99999 = r.val := by
  have hc : IntOp.cmpi .slt v 0#32 = 0#1 := by
    have : v.slt 0#32 = false := by
      simp only [BitVec.slt, hv, BitVec.toInt_zero, decide_eq_false_iff_not, not_lt]
      exact Int.natCast_nonneg _
    show BitVec.ofBool (v.slt 0#32) = 0#1
    rw [this]; rfl
  rw [hc, select_zero, hv]
  have := r.isLt
  omega

end Cert.IdxSem
-- ==== Proof.Algebra.lean ====
/-
  Sums of extended reals whose terms are all real behave like real sums: they are real, and a real factor moves
  across them.  This is the one place where finiteness matters: on the extended reals a factor does not
  distribute over a sum that mixes the two infinities.

  `scatter_scale` is the law that joins the two programs' aggregations.  Over the updates `S` that land on one
  element, one program sums `A j * p j` and scales the sum by `c` afterwards; the other scales every update by
  `p j * pd j` first, where `pd j` is `c` for every update that lands on that element.
-/
import Idealize.ShloMosaic.PureOps.Ideal

namespace Cert.Alg

open scoped BigOperators

/-- A finite sum of reals, read in the extended reals, moves a real factor inside, and is a real. -/
theorem sum_mul_real {ι : Type*} (S : Finset ι) (f : ι → EReal) (hf : ∀ j ∈ S, ∃ a : ℝ, f j = (a : EReal)) (cc : ℝ) :
    (∑ j ∈ S, f j) * (cc : EReal) = ∑ j ∈ S, f j * (cc : EReal) ∧ ∃ r : ℝ, ∑ j ∈ S, f j = (r : EReal) := by
  classical
  induction S using Finset.induction_on with
  | empty => exact ⟨by simp, 0, by simp⟩
  | insert a s ha ih =>
    obtain ⟨h1, r, hr⟩ := ih (fun j hj => hf j (Finset.mem_insert_of_mem hj))
    obtain ⟨x, hx⟩ := hf a (Finset.mem_insert_self a s)
    rw [Finset.sum_insert ha, Finset.sum_insert ha, ← h1, hr, hx]
    refine ⟨?_, x + r, by rw [EReal.coe_add]⟩
    rw [← EReal.coe_add, ← EReal.coe_mul, ← EReal.coe_mul, ← EReal.coe_mul, ← EReal.coe_add, add_mul]

/-- A finite sum of reals is a real. -/
theorem sum_real {ι : Type*} (S : Finset ι) (f : ι → EReal) (hf : ∀ j ∈ S, ∃ a : ℝ, f j = (a : EReal)) :
    ∃ r : ℝ, ∑ j ∈ S, f j = (r : EReal) := (sum_mul_real S f hf 0).2

/-- A product of two reals is a real. -/
theorem mul_real {x y : EReal} (hx : ∃ a : ℝ, x = (a : EReal)) (hy : ∃ a : ℝ, y = (a : EReal)) :
    ∃ a : ℝ, x * y = (a : EReal) := by
  obtain ⟨a, rfl⟩ := hx; obtain ⟨b, rfl⟩ := hy; exact ⟨a * b, (EReal.coe_mul a b).symm⟩

/-- Scaling a sum of real updates by a real afterwards is scaling every update first. -/
theorem scatter_scale {ι : Type*} (S : Finset ι) (A p pd : ι → EReal) (c : EReal)
    (hA : ∀ j ∈ S, ∃ a : ℝ, A j = (a : EReal)) (hp : ∀ j ∈ S, ∃ a : ℝ, p j = (a : EReal))
    (hc : ∃ a : ℝ, c = (a : EReal)) (hpd : ∀ j ∈ S, pd j = c) :
    (0 + ∑ j ∈ S, A j * p j) * c = 0 + ∑ j ∈ S, A j * (p j * pd j) := by
  obtain ⟨cc, rfl⟩ := hc
  rw [zero_add, zero_add,
    (sum_mul_real S (fun j => A j * p j) (fun j hj => mul_real (hA j hj) (hp j hj)) cc).1]
  refine Finset.sum_congr rfl fun j hj => ?_
  rw [hpd j hj]
  exact mul_assoc (A j) (p j) (cc : EReal)

end Cert.Alg
-- ==== Proof.Bridge.lean ====
/-
  The law that joins the two programs' aggregations, over the reference program's own stage functions of the edge
  list.

  The reference scales every gathered row of x · W by the product of the two node factors and adds the scaled rows
  up at the target node.  The kernel program scales every row of x · W by its own node's factor BEFORE the gather,
  adds the gathered rows up at the target node, and scales the sum by the target node's factor afterwards.  An update
  lands on node r exactly when its target index, read signed, is r; for such an update the reference's second factor,
  read through the wrapped and clamped target index, is node r's factor.  Every term is a real number (the inputs are
  finite, a degree is a finite sum of ones, and the guarded reciprocal square root of a real is a real), so the factor
  moves across the sum.
-/
import proofs.«147667_j32315333935196_2_alg».proof.Proof.RefReadP
import proofs.«147667_j32315333935196_2_alg».proof.Proof.RefRead
import proofs.«147667_j32315333935196_2_alg».proof.Proof.IdxSem
import proofs.«147667_j32315333935196_2_alg».proof.Proof.Finite
import proofs.«147667_j32315333935196_2_alg».proof.Proof.Algebra
import proofs.«147667_j32315333935196_2_alg».proof.Proof.Spec

set_option maxRecDepth 16384

noncomputable section

open Idealize.ShloMosaic Idealize.ShloMosaic.ValueIdx

namespace Cert.Bridge

open Cert.ReferenceIdeal Cert.ReferenceIdeal.ReadP

/-- The host's accumulating scatter at an index: the operand's element plus the sum of the updates that land there. -/
theorem scatterAdd_apply {s si su : Shape} (d : ScatterDims s si su) {w : Nat} (x : s.Idx → EReal) (idx : IVec si w)
    (upd : su.Idx → EReal) (i : s.Idx) :
    (Host.scatterAdd (F := Ideal) (φ := .f32) d x idx upd : s.Idx → EReal) i
      = x i + ∑ j ∈ Finset.univ.filter (fun j => d.resultIdx? j idx = some i), upd j := rfl

variable (x0 : (⟨S100000x128, .f32⟩ : BufTy).Contents (Elt Ideal)) (x2 : (⟨S128x128, .f32⟩ : BufTy).Contents (Elt Ideal))
  (x8 : (⟨S2x1600000, .i32⟩ : BufTy).Contents (Elt Ideal))

/-- Every node's degree is a real: zero plus a finite sum of ones. -/
theorem deg_real (i : S100000.Idx) : ∃ a : ℝ, val_main_v10 (F := Ideal) x8 i = (a : EReal) := by
  unfold val_main_v10
  rw [scatterAdd_apply, val_main_v8_apply, val_main_cst_0_apply, Ideal.ofBits_def, Ideal.ofBits_zero_f32, zero_add]
  refine Alg.sum_real _ _ (fun j _ => ?_)
  rw [val_main_v7_apply, val_main_cst_apply, Ideal.ofBits_def]
  exact Finite.one_real

/-- Every node's factor, the guarded reciprocal square root of its degree, is a real. -/
theorem dinv_real (i : S100000.Idx) : ∃ a : ℝ, val_main_v14 (F := Ideal) x8 i = (a : EReal) := by
  rw [val_main_v14_apply, val_main_v12_apply, val_main_v13_apply, val_main_v11_apply, val_main_cst_1_apply,
    val_main_call0_v1_apply, val_main_call0_v0_apply, val_main_cst_2_apply, Ideal.ofBits_def, Ideal.hostUnary_rsqrt_def]
  exact Finite.dinv_real _ (deg_real x8 i)

/-- Every entry of x · W is a real when the entries of x and W are. -/
theorem xw_real (hx0 : ∀ i, ∃ a : ℝ, x0 i = (a : EReal)) (hx2 : ∀ i, ∃ a : ℝ, x2 i = (a : EReal)) (r : Fin 100000) (q : Fin 128) :
    ∃ a : ℝ, val_main_v30 (F := Ideal) x0 x2 (ix2 r q) = (a : EReal) := by
  rw [RefRead.v30_apply]
  unfold Spec.xw
  exact Alg.sum_real _ _ (fun k _ => Alg.mul_real (hx0 _) (hx2 _))

/-- The node an update's row is gathered from: its source index, wrapped, read signed and clamped. -/
def srcRow (j : S1700000x128.Idx) : Fin 100000 :=
  ⟨min ((val_main_v36 (F := Ideal) x8 : IVec S1700000x1 32) (ix2 (⟨(j 0).val, (j 0).isLt⟩ : Fin 1700000) (0 : Fin 1))).toInt.toNat 99999, by omega⟩
/-- The node whose factor the reference reads for an update's target: its target index, wrapped, read signed and clamped. -/
def dstRow (j : S1700000x128.Idx) : Fin 100000 :=
  ⟨min ((val_main_v27 (F := Ideal) x8 : IVec S1700000x1 32) (ix2 (⟨(j 0).val, (j 0).isLt⟩ : Fin 1700000) (0 : Fin 1))).toInt.toNat 99999, by omega⟩

/-- The reference's update: the gathered entry of x · W times the two node factors. -/
theorem v40_at (j : S1700000x128.Idx) :
    val_main_v40 (F := Ideal) x0 x2 x8 j
      = val_main_v30 (F := Ideal) x0 x2 (ix2 (srcRow x8 j) (⟨(j 1).val, (j 1).isLt⟩ : Fin 128))
        * (val_main_v14 (F := Ideal) x8 (ix1 (srcRow x8 j)) * val_main_v14 (F := Ideal) x8 (ix1 (dstRow x8 j))) := by
  obtain ⟨e, q, rfl⟩ : ∃ (e : Fin 1700000) (q : Fin 128), j = ix2 e q := ⟨j 0, j 1, eq_ix2 j⟩
  rw [val_main_v40_apply, Ideal.mulf_def, val_main_v39_apply, val_main_v38_apply, val_main_v29_apply, Ideal.mulf_def]
  have h37 : val_main_v37 (F := Ideal) x0 x2 x8 (ix2 e q)
      = val_main_v30 (F := Ideal) x0 x2 (gather_S100000x128_S1700000x1_S1700000x128_1_0_n_n_0_1_1128.operandIdx (ix2 e q) (val_main_v36 (F := Ideal) x8)) := rfl
  have hi : idx_main_v38 (idx_main_v39 (ix2 e q : S1700000x128.Idx)) = (ix1 e : S1700000.Idx) := by
    funext a; match a with | ⟨0, _⟩ => rfl
  have h21 : val_main_v21 (F := Ideal) x8 (ix1 e)
      = val_main_v14 (F := Ideal) x8 (gather_S100000_S1700000x1_S1700000_n_0_n_n_0_1_1.operandIdx (ix1 e) (val_main_v36 (F := Ideal) x8)) := rfl
  have h28 : val_main_v28 (F := Ideal) x8 (ix1 e)
      = val_main_v14 (F := Ideal) x8 (gather_S100000_S1700000x1_S1700000_n_0_n_n_0_1_1.operandIdx (ix1 e) (val_main_v27 (F := Ideal) x8)) := rfl
  rw [h37, hi, h21, h28, IdxSem.gather_rows, IdxSem.gather_vec, IdxSem.gather_vec]
  rfl

/-- An update that lands on node r reads node r's factor for its target. -/
theorem dstRow_of_lands (j : S1700000x128.Idx) (r : Fin 100000) (k : Fin 128)
    (h : scatter_S100000x128_S1700000x1_S1700000x128_1_0_0_1.resultIdx? j (val_main_v42 (F := Ideal) x8) = some (ix2 r k)) :
    dstRow x8 j = r := by
  obtain ⟨e, q, rfl⟩ : ∃ (e : Fin 1700000) (q : Fin 128), j = ix2 e q := ⟨j 0, j 1, eq_ix2 j⟩
  obtain ⟨hr, -⟩ := IdxSem.scatter_lands (val_main_v42 (F := Ideal) x8) e q r k h
  apply Fin.ext
  show min ((val_main_v27 (F := Ideal) x8 : IVec S1700000x1 32) (ix2 e (0 : Fin 1))).toInt.toNat 99999 = r.val
  rw [val_main_v27_apply, val_main_v26_apply, val_main_v23_apply, val_main_v25_apply, val_main_v22_apply, val_main_v24_apply,
    val_main_c_4_apply, val_main_c_5_apply]
  refine IdxSem.wrap_of_inrange _ r ?_
  rw [val_main_v42_apply] at hr
  exact hr

/-- THE LAW: the kernel program's aggregate at (r, k), scaled by node r's factor, is the reference's aggregate. -/
theorem agg_scale (hx0 : ∀ i, ∃ a : ℝ, x0 i = (a : EReal)) (hx2 : ∀ i, ∃ a : ℝ, x2 i = (a : EReal)) (r : Fin 100000) (k : Fin 128) :
    (0 + ∑ j ∈ Finset.univ.filter (fun j => scatter_S100000x128_S1700000x1_S1700000x128_1_0_0_1.resultIdx? j (val_main_v42 (F := Ideal) x8) = some (ix2 r k)),
        val_main_v30 (F := Ideal) x0 x2 (ix2 (srcRow x8 j) (⟨(j 1).val, (j 1).isLt⟩ : Fin 128)) * val_main_v14 (F := Ideal) x8 (ix1 (srcRow x8 j)))
      * val_main_v14 (F := Ideal) x8 (ix1 r)
    = val_main_v43 (F := Ideal) x0 x2 x8 (ix2 r k) := by
  unfold val_main_v43
  rw [scatterAdd_apply, val_main_v41_apply, val_main_cst_8_apply, Ideal.ofBits_def, Ideal.ofBits_zero_f32]
  generalize hS : Finset.univ.filter (fun j => scatter_S100000x128_S1700000x1_S1700000x128_1_0_0_1.resultIdx? j (val_main_v42 (F := Ideal) x8) = some (ix2 r k)) = S
  have hmem : ∀ j ∈ S, scatter_S100000x128_S1700000x1_S1700000x128_1_0_0_1.resultIdx? j (val_main_v42 (F := Ideal) x8) = some (ix2 r k) := by
    intro j hj; rw [← hS] at hj; exact (Finset.mem_filter.mp hj).2
  have hlaw := Alg.scatter_scale S (fun j => val_main_v30 (F := Ideal) x0 x2 (ix2 (srcRow x8 j) (⟨(j 1).val, (j 1).isLt⟩ : Fin 128)))
    (fun j => val_main_v14 (F := Ideal) x8 (ix1 (srcRow x8 j))) (fun j => val_main_v14 (F := Ideal) x8 (ix1 (dstRow x8 j)))
    (val_main_v14 (F := Ideal) x8 (ix1 r)) (fun j _ => xw_real x0 x2 hx0 hx2 _ _) (fun j _ => dinv_real x8 _) (dinv_real x8 _)
    (fun j hj => by rw [dstRow_of_lands x8 j r k (hmem j hj)])
  refine hlaw.trans ?_
  refine congrArg (0 + ·) (Finset.sum_congr rfl fun j _ => ?_)
  exact (v40_at x0 x2 x8 j).symm

end Cert.Bridge

end
-- ==== Proof.KAgg.lean ====
/-
  The kernel program's aggregate, read at an index, and the law that makes it the reference's.

  Row s of the first region's array is row s of x · W scaled by node s's factor.  The aggregate at (r, k) is zero plus
  the sum, over the updates that land on (r, k), of the gathered entries of that array; an update (e, q) gathers row
  "source of e", column q.  With the law of the aggregation (a real factor moves across a sum of reals) the aggregate
  scaled by node r's factor is the reference's aggregate.
-/
import proofs.«147667_j32315333935196_2_alg».proof.Proof.KVal
import proofs.«147667_j32315333935196_2_alg».proof.Proof.Bridge

set_option maxRecDepth 16384

noncomputable section

open Idealize.ShloMosaic Idealize.ShloMosaic.TcCoe Idealize.SL.Sem Idealize.ShloMosaic.ValueIdx

namespace Cert.KernelIdeal.KAgg

open Cert.KernelIdeal Cert.KernelIdeal.Gen Cert.KernelIdeal.KVal

/-- Entry (s, q) of the first region's array: entry (s, q) of x · W times node s's factor. -/
theorem yArr_apply (a0 : S100000x128.Idx → EReal) (a2 : S128x128.Idx → EReal) (dinv : S100000.Idx → EReal) (s : Fin 100000) (q : Fin 128) :
    yArr a0 a2 dinv (ix2 s q) = Spec.xw a0 a2 s q * dinv (ix1 s) := by
  unfold yArr KArr.G0 f0
  exact congrArg (fun t => Spec.xw a0 a2 s q * t) (sc_col dinv s)

/-- The aggregate at (r, k): zero plus the sum over the updates landing there of the gathered, pre-scaled entries. -/
theorem aggArr_apply (a0 : S100000x128.Idx → EReal) (a2 : S128x128.Idx → EReal) (a8 : S2x1600000.Idx → BitVec 32) (r : Fin 100000) (k : Fin 128) :
    aggArr a0 a2 a8 (ix2 r k)
      = 0 + ∑ j ∈ Finset.univ.filter (fun j => Cert.ReferenceIdeal.scatter_S100000x128_S1700000x1_S1700000x128_1_0_0_1.resultIdx? j (Cert.ReferenceIdeal.ReadP.val_main_v42 (F := Ideal) a8) = some (ix2 r k)),
          Cert.ReferenceIdeal.ReadP.val_main_v30 (F := Ideal) a0 a2 (ix2 (Cert.Bridge.srcRow a8 j) (⟨(j 1).val, (j 1).isLt⟩ : Fin 128))
            * Cert.ReferenceIdeal.ReadP.val_main_v14 (F := Ideal) a8 (ix1 (Cert.Bridge.srcRow a8 j)) := by
  unfold aggArr
  rw [Cert.Bridge.scatterAdd_apply]
  refine congr (congrArg HAdd.hAdd ?_) (Finset.sum_congr rfl fun j _ => ?_)
  · rw [Cert.ReferenceIdeal.ReadP.val_main_v41_apply, Cert.ReferenceIdeal.ReadP.val_main_cst_8_apply, Ideal.ofBits_def, Ideal.ofBits_zero_f32]
  · obtain ⟨e, q, rfl⟩ : ∃ (e : Fin 1700000) (q : Fin 128), j = ix2 e q := ⟨j 0, j 1, eq_ix2 j⟩
    show yArr a0 a2 (Cert.ReferenceIdeal.ReadP.val_main_v14 (F := Ideal) a8)
        (Cert.ReferenceIdeal.gather_S100000x128_S1700000x1_S1700000x128_1_0_n_n_0_1_1128.operandIdx (ix2 e q) (Cert.ReferenceIdeal.ReadP.val_main_v36 (F := Ideal) a8)) = _
    rw [Cert.IdxSem.gather_rows, yArr_apply, ← Cert.RefRead.v30_apply]
    rfl

/-- The aggregate scaled by the target node's factor is the reference's aggregate, when x and W are finite. -/
theorem agg_scaled (a0 : S100000x128.Idx → EReal) (a2 : S128x128.Idx → EReal) (a8 : S2x1600000.Idx → BitVec 32)
    (hx0 : ∀ i, ∃ a : ℝ, a0 i = (a : EReal)) (hx2 : ∀ i, ∃ a : ℝ, a2 i = (a : EReal)) (r : Fin 100000) (k : Fin 128) :
    aggArr a0 a2 a8 (ix2 r k) * Cert.ReferenceIdeal.ReadP.val_main_v14 (F := Ideal) a8 (ix1 r) = Cert.ReferenceIdeal.ReadP.val_main_v43 (F := Ideal) a0 a2 a8 (ix2 r k) := by
  rw [aggArr_apply]
  exact Cert.Bridge.agg_scale a0 a2 a8 hx0 hx2 r k

end Cert.KernelIdeal.KAgg

end
-- ==== Proof.lean ====
/-
  The claim: the kernel program, its idealization and the idealized reference each run to the end leaving their
  arguments unchanged, and the two idealized programs return equal results over the extended reals.

  Both programs are a graph convolution followed by layer normalisation, and a second branch that normalises x' · W.
  The second branch is the same function of the arguments on both sides, index by index.  In the first branch the
  reference weighs every edge's message (x · W)[src] by dinv[src] · dinv[dst] before summing the messages at dst; the
  kernel program folds dinv[src] into the rows of x · W before the gather and dinv[dst] into the normalisation kernel
  after the sum.  The two agree because every term is a real number under the precondition (x and W finite; dinv is a
  guarded reciprocal square root of a finite count), so dinv[dst] moves across the sum; an edge that lands on node r
  has dst = r, read the same way by the scatter and, after wrapping and clamping, by the reference's gather.  The
  rounding of x, W and the messages to a narrower float format in the kernel program is the identity at this instance.
-/
import proofs.«147667_j32315333935196_2_alg».proof.Defs
import proofs.«147667_j32315333935196_2_alg».proof.Proof.Gen.Kernel
import proofs.«147667_j32315333935196_2_alg».proof.Proof.Gen.Kernel.Skeleton
import proofs.«147667_j32315333935196_2_alg».proof.Proof.Gen.Kernel.Launch
import proofs.«147667_j32315333935196_2_alg».proof.Proof.Gen.Kernel.Points
import proofs.«147667_j32315333935196_2_alg».proof.Proof.Gen.Kernel.Frame
import proofs.«147667_j32315333935196_2_alg».proof.Proof.Gen.KernelIdeal
import proofs.«147667_j32315333935196_2_alg».proof.Proof.Gen.KernelIdeal.Skeleton
import proofs.«147667_j32315333935196_2_alg».proof.Proof.Gen.KernelIdeal.Launch
import proofs.«147667_j32315333935196_2_alg».proof.Proof.Gen.KernelIdeal.Points
import proofs.«147667_j32315333935196_2_alg».proof.Proof.Gen.KernelIdeal.Frame
import proofs.«147667_j32315333935196_2_alg».proof.Proof.Gen.ReferenceIdeal
import proofs.«147667_j32315333935196_2_alg».proof.Proof.RefRunP
import proofs.«147667_j32315333935196_2_alg».proof.Proof.RefReadP
import proofs.«147667_j32315333935196_2_alg».proof.Proof.Gen.Pre_finite_inputs
import proofs.«147667_j32315333935196_2_alg».proof.Proof.RefRead
import proofs.«147667_j32315333935196_2_alg».proof.Proof.Finite
import proofs.«147667_j32315333935196_2_alg».proof.Proof.KRun
import proofs.«147667_j32315333935196_2_alg».proof.Proof.KVal
import proofs.«147667_j32315333935196_2_alg».proof.Proof.KAgg
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The kernel program runs and keeps its arguments. -/
theorem frame_k : Cert.frame_Kernel := fun m ρ _ => Cert.Kernel.Gen.frame m ρ

/-- Its idealization runs and keeps its arguments. -/
theorem frame_ki : Cert.frame_KernelIdeal := fun m ρ _ => Cert.KernelIdeal.Gen.frame m ρ

/-- The idealized reference runs and keeps its arguments: its run with the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The idealization rewrote no operation. -/
theorem preserves : Cert.preserves_Kernel_KernelIdeal := trivial

/-- The two idealized programs, from memories that agree on the arguments, return equal results. -/
theorem algebraic : Cert.algebraic_KernelIdeal_ReferenceIdeal := by
  intro m ρ m' ρ' hpre hagree
  refine ⟨fun c => Cert.KernelIdeal.Gen.W8 m ρ c (Proc.devRef .tc Cert.KernelIdeal.main_v33),
    fun c => Cert.KernelIdeal.Gen.W8 m ρ c (Proc.devRef .tc Cert.KernelIdeal.main_v36),
    Cert.KernelIdeal.KRun.run_results (F := Ideal) m ρ, ?_⟩
  refine (θ_run Cert.ReferenceIdeal.defs _ _).mono (fun _ h c => ?_) (Cert.ReferenceIdeal.ValueP.run (F := Ideal) m' ρ')
  obtain ⟨h71, h95, hargs⟩ := h c
  obtain ⟨e0, e1, e2, e3, e4, e5, e6, e7, e8⟩ := hagree c
  obtain ⟨hx0, hx2⟩ := Cert.Finite.entries_real _ _ _ _ _ _ _ _ _ (hpre c)
  refine ⟨h71.trans ?_, h95.trans ?_, hargs⟩
  · rw [Cert.ReferenceIdeal.ReadP.val_main_v71_eq, e0, e2, e3, e4, e5, e8]
    funext i
    obtain ⟨r, q, rfl⟩ : ∃ (r : Fin 100000) (q : Fin 128), i = ix2 r q := ⟨i 0, i 1, eq_ix2 i⟩
    rw [Cert.RefRead.out1_apply]
    refine Eq.trans ?_ (Cert.KernelIdeal.KVal.out1_val m ρ c r q).symm
    refine Cert.KernelIdeal.KVal.lnRow_congr (funext fun k => ?_) rfl rfl q
    exact congrArg (fun t => t + m ((c.tc : Thread Cert.KernelIdeal.nD Cert.KernelIdeal.τ).loc Cert.KernelIdeal.main_arg3) (ix1 k))
      (Cert.KernelIdeal.KAgg.agg_scaled _ _ _ hx0 hx2 r k).symm
  · rw [Cert.ReferenceIdeal.ReadP.val_main_v95_eq, e1, e2, e6, e7]
    funext i
    obtain ⟨r, q, rfl⟩ : ∃ (r : Fin 100000) (q : Fin 128), i = ix2 r q := ⟨i 0, i 1, eq_ix2 i⟩
    rw [Cert.RefRead.out2_apply]
    exact (Cert.KernelIdeal.KVal.out2_val m ρ c r q).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
